-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S128x1 : Shape := ⟨2, ![128, 1]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x128 .f32) (main_arg6 : FVec F S1 .f32) (main_arg7 : FVec F S1x128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S100000x1 .f32) (main_arg1 : IVec S2x1600000 32) (main_arg2 : FVec F S128x1 .f32) (main_arg3 : FVec F S128 .f32) (main_arg4 : FVec F S128x1 .f32) (main_arg5 : FVec F S1x128 .f32) (main_arg6 : FVec F S1 .f32) (main_arg7 : FVec F S1x128 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_arg6 main_arg7 main_v13 main_v16
-- ==== Kernel.lean ====
abbrev S100000x1 : Shape := ⟨2, ![100000, 1]⟩
abbrev S2x1600000 : Shape := ⟨2, ![2, 1600000]⟩
abbrev S128x1 : Shape := ⟨2, ![128, 1]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S102400 : Shape := ⟨1, ![102400]⟩
abbrev S1x102400 : Shape := ⟨2, ![1, 102400]⟩
abbrev S1x2560 : Shape := ⟨2, ![1, 2560]⟩
abbrev S128x2560 : Shape := ⟨2, ![128, 2560]⟩
abbrev S2560 : Shape := ⟨1, ![2560]⟩
abbrev S1x1 : Shape := ⟨2, ![1, 1]⟩

abbrev nBuf : Space → Nat
  | .hbm => 73
  | .vmem => 22
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S128x1, .f32⟩
  | .hbm, ⟨3, _⟩ => ⟨S128, .f32⟩
  | .hbm, ⟨4, _⟩ => ⟨S128x1, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .i32⟩
  | .hbm, ⟨27, _⟩ => ⟨S_, .f32⟩
  | .hbm, ⟨28, _⟩ => ⟨S102400, .f32⟩
  | .hbm, ⟨29, _⟩ => ⟨S1x102400, .f32⟩
  | .hbm, ⟨30, _⟩ => ⟨S_, .i32⟩
  | .hbm, ⟨31, _⟩ => ⟨S_, .f32⟩
  | .hbm, ⟨32, _⟩ => ⟨S102400, .f32⟩
  | .hbm, ⟨33, _⟩ => ⟨S1x102400, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S1x102400, .f32⟩
  | .hbm, ⟨38, _⟩ => ⟨S1x102400, .f32⟩
  | .hbm, ⟨39, _⟩ => ⟨S102400, .f32⟩
  | .hbm, ⟨40, _⟩ => ⟨S100000, .f32⟩
  | .hbm, ⟨41, _⟩ => ⟨S102400, .f32⟩
  | .hbm, ⟨42, _⟩ => ⟨S100000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .i32⟩
  | .hbm, ⟨57, _⟩ => ⟨S_, .f32⟩
  | .hbm, ⟨58, _⟩ => ⟨S102400, .f32⟩
  | .hbm, ⟨59, _⟩ => ⟨S1x102400, .f32⟩
  | .hbm, ⟨60, _⟩ => ⟨S_, .i32⟩
  | .hbm, ⟨61, _⟩ => ⟨S_, .f32⟩
  | .hbm, ⟨62, _⟩ => ⟨S102400, .f32⟩
  | .hbm, ⟨63, _⟩ => ⟨S1x102400, .f32⟩
  | .hbm, ⟨64, _⟩ => ⟨S1x1, .f32⟩
  | .hbm, ⟨65, _⟩ => ⟨S1x102400, .f32⟩
  | .hbm, ⟨66, _⟩ => ⟨S1x102400, .f32⟩
  | .hbm, ⟨67, _⟩ => ⟨S102400, .f32⟩
  | .hbm, ⟨68, _⟩ => ⟨S100000, .f32⟩
  | .hbm, ⟨69, _⟩ => ⟨S100000x1, .f32⟩
  | .hbm, ⟨70, _⟩ => ⟨S102400, .f32⟩
  | .hbm, ⟨71, _⟩ => ⟨S100000, .f32⟩
  | .hbm, ⟨72, _⟩ => ⟨S100000x1, .f32⟩
  | .local _ .vmem, ⟨0, _⟩ => ⟨S1x2560, .f32⟩
  | .local _ .vmem, ⟨1, _⟩ => ⟨S1x2560, .f32⟩
  | .local _ .vmem, ⟨2, _⟩ => ⟨S1x2560, .f32⟩
  | .local _ .vmem, ⟨3, _⟩ => ⟨S1x2560, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S1x2560, .f32⟩
  | .local _ .vmem, ⟨10, _⟩ => ⟨S1x2560, .f32⟩
  | .local _ .vmem, ⟨11, _⟩ => ⟨S1x2560, .f32⟩
  | .local _ .vmem, ⟨12, _⟩ => ⟨S1x2560, .f32⟩
  | .local _ .vmem, ⟨13, _⟩ => ⟨S1x2560, .f32⟩
  | .local _ .vmem, ⟨14, _⟩ => ⟨S1x2560, .f32⟩
  | .local _ .vmem, ⟨15, _⟩ => ⟨S1x2560, .f32⟩
  | .local _ .vmem, ⟨16, _⟩ => ⟨S1x2560, .f32⟩
  | .local _ .vmem, ⟨17, _⟩ => ⟨S1x1, .f32⟩
  | .local _ .vmem, ⟨18, _⟩ => ⟨S1x2560, .f32⟩
  | .local _ .vmem, ⟨19, _⟩ => ⟨S1x2560, .f32⟩
  | .local _ .vmem, ⟨20, _⟩ => ⟨S1x2560, .f32⟩
  | .local _ .vmem, ⟨21, _⟩ => ⟨S1x2560, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_call1_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_call2_v0 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_call3_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x2560 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2560 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2560 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000x1_S100000 : S100000x1.ShapeCasts S100000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  pads_S100000_S102400_024000 : S100000.Pads (![0] : Fin 1 → Nat) ![2400] ![0] S102400
  h_S_ : 0 < S_.numel
  shapeCasts_S102400_S1x102400 : S102400.ShapeCasts S1x102400
  shapeCasts_S128_S128x1 : S128.ShapeCasts S128x1
  shapeCasts_S1x128_S128x1 : S1x128.ShapeCasts S128x1
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S1x2560_S128x2560 : S1x2560.Broadcasts S128x2560
  broadcasts_S128x1_S128x2560 : S128x1.Broadcasts S128x2560
  reduces_S128x2560_S2560 : S128x2560.Reduces [0] S2560
  shapeCasts_S2560_S1x2560 : S2560.ShapeCasts S1x2560
  shapeCasts_S1x102400_S102400 : S1x102400.ShapeCasts S102400
  slices_S102400_S100000_0 : S102400.Slices ![0] S100000
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x2560 : S1x1.Broadcasts S1x2560
  shapeCasts_S100000_S100000x1 : S100000.ShapeCasts S100000x1
  gather_S100000_S1600000x1_S1600000_n_0_n_n_0_1_1_wf : GatherDims.WF S100000 S1600000x1 S1600000 [] [0] [] [0] [] 1 ![1]
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2560.size a ≤ S1x102400.size a
  hwx0_0 : ∀ i : grid0.Coords, EltTy.bits .f32 = 32 ∨ (Rect.block (s := S1x102400) S1x2560.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2560.size a ≤ S1x102400.size a
  hwx0_1 : ∀ i : grid0.Coords, EltTy.bits .f32 = 32 ∨ (Rect.block (s := S1x102400) S1x2560.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2560.size a ≤ S1x102400.size a
  hwx0_7 : ∀ i : grid0.Coords, EltTy.bits .f32 = 32 ∨ (Rect.block (s := S1x102400) S1x2560.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2560.size a ≤ S1x102400.size a
  hwx0_8 : ∀ i : grid0.Coords, EltTy.bits .f32 = 32 ∨ (Rect.block (s := S1x102400) S1x2560.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2560.size a ≤ S1x102400.size a
  hwx1_0 : ∀ i : grid1.Coords, EltTy.bits .f32 = 32 ∨ (Rect.block (s := S1x102400) S1x2560.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2560.size a ≤ S1x102400.size a
  hwx1_1 : ∀ i : grid1.Coords, EltTy.bits .f32 = 32 ∨ (Rect.block (s := S1x102400) S1x2560.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2560.size a ≤ S1x102400.size a
  hwx1_3 : ∀ i : grid1.Coords, EltTy.bits .f32 = 32 ∨ (Rect.block (s := S1x102400) S1x2560.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2560.size a ≤ S1x102400.size a
  hwx1_4 : ∀ i : grid1.Coords, EltTy.bits .f32 = 32 ∨ (Rect.block (s := S1x102400) S1x2560.size (cc1_transform_4 i) (hinb1_4 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_v16) S1x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22_0) S1x2560.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v22_1) S1x2560.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v38) S1x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x2560.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42_0) S1x2560.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42_1) S1x2560.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S128x1 : Shape := ⟨2, ![128, 1]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1600000x128 : Shape := ⟨2, ![1600000, 128]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S128x1, .f32⟩
  | .hbm, ⟨3, _⟩ => ⟨S128, .f32⟩
  | .hbm, ⟨4, _⟩ => ⟨S128x1, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x1, .f32⟩
  | .hbm, ⟨21, _⟩ => ⟨S_, .f32⟩
  | .hbm, ⟨22, _⟩ => ⟨S100000x1, .f32⟩
  | .hbm, ⟨23, _⟩ => ⟨S1600000x1, .i32⟩
  | .hbm, ⟨24, _⟩ => ⟨S100000x1, .f32⟩
  | .hbm, ⟨25, _⟩ => ⟨S1x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x1, .f32⟩
  | .hbm, ⟨50, _⟩ => ⟨S100000x1, .f32⟩
  | .hbm, ⟨51, _⟩ => ⟨S1x1, .f32⟩
  | .hbm, ⟨52, _⟩ => ⟨S100000x1, .f32⟩
  | .hbm, ⟨53, _⟩ => ⟨S100000x1, .f32⟩
  | .hbm, ⟨54, _⟩ => ⟨S128x1, .f32⟩
  | .hbm, ⟨55, _⟩ => ⟨S100000x1, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call1_cst : Ref sig .tc := ⟨.hbm, 57, rfl⟩
abbrev main_call1_v0 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  transposes_S128x1_S1x128_1_0 : S128x1.Transposes [1, 0] S1x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x128_S100000x128_1_0_0_1_n_n_wf : DotDims.WF S100000x1 S1x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's run, with every buffer read at the end.

  The program is five stretches of host operations, the first launch (the hidden layer and its two projections, 40
  grid points), five more stretches, the second launch (the combination, 40 grid points) and a last stretch. Folding
  the stretches and the two launches' write-backs from the launch memory gives, for every buffer that lives outside
  the kernels' staging space, its contents when the program returns: the last stage `Gen.W13` of that fold. Every
  weakly fair execution terminates without a fault and ends with each such buffer at those contents; the results and
  the arguments are among them.
-/
import proofs.«140387_j52286931861627_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    every buffer outside the staging space ends at the last stage of the fold through the stretches and the launches. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.KernelIdeal.Run

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.LibPaddedRow.lean ====
/-
  Layout steps a host program takes around a launch over a zero-padded row, each read at an index.

  A launch that works on whole blocks is handed rows whose length is a multiple of the block length, so the host
  program around it re-lays its arrays first and cuts the result back afterwards: a column of a numbers (shape [a, 1])
  is flattened to a vector of a numbers; a row (shape [1, a]) is stood up as a column (shape [a, 1]); a vector of N
  numbers is padded at its end up to M numbers; and the first N entries of a vector of M numbers are cut out again.
  None of these steps changes a value, each only changes where a value sits:

  * entry p of the flattened column is the column's entry (p, 0);
  * entry (p, 0) of the stood-up row is the row's entry (0, p);
  * entry n of the padded vector, for n below the operand's length, is the operand's entry n, whatever is padded
    behind it;
  * entry n of the cut-out head is entry n of the longer vector.

  A shape cast keeps the row-major position, and for these shapes the two positions are p · 1 + 0 and p, or 0 · a + p
  and p · 1 + 0; a pad with nothing in front and nothing between the entries puts entry n at position 0 + n · 1; a
  slice from offset 0 reads position 0 + n.
-/
import Idealize.ShloMosaic.Lib.ValueIdx
import Idealize.ShloMosaic.Lib.Pipeline.Value
import Idealize.ShloMosaic.Lib.KernelVsHost

namespace Idealize.ShloMosaic.PaddedRow

open Idealize.ShloMosaic Idealize.ShloMosaic.ValueIdx

variable {α : Type}

/-- An [a, 1] column cast to an [a] vector reads, at p, the column at (p, 0): both sit at row-major position p. -/
theorem shapeCast_a1_a_apply {a : ℕ} (x : (⟨2, ![a, 1]⟩ : Shape).Idx → α) (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A [1, a] row cast to an [a, 1] column reads, at (p, u), the row at (0, p), whatever the unit coordinate u: both sit
    at row-major position p. -/
theorem shapeCast_1a_a1_apply {a : ℕ} (x : (⟨2, ![1, a]⟩ : Shape).Idx → α) (h : (⟨2, ![1, a]⟩ : Shape).ShapeCasts ⟨2, ![a, 1]⟩) (p : Fin a) (u : Fin 1) :
    shapeCast ⟨2, ![a, 1]⟩ x h (ix2 p u) = x (ix2 (0 : Fin 1) p) :=
  shapeCast_apply x h _ _ (by
    have hu : u.val = 0 := by omega
    rw [Shape.rowMajor_val_two, Shape.rowMajor_val_two]
    show 0 * a + p.val = p.val * 1 + u.val
    rw [hu, Nat.zero_mul, Nat.zero_add, Nat.mul_one, Nat.add_zero])

/-- A vector of N numbers padded only at its end, up to M numbers, reads at an entry below N the operand's entry there:
    with nothing in front and nothing between the entries, entry n of the operand sits at position 0 + n · 1. -/
theorem pad_tail_apply {N M : ℕ} (hi : Fin 1 → ℕ) (x : (⟨1, ![N]⟩ : Shape).Idx → α) {u : Shape} (v : u.Idx → α)
    (h : (⟨1, ![N]⟩ : Shape).Pads ![0] hi ![0] ⟨1, ![M]⟩) (hu : 0 < u.numel) (n : Fin N) (n' : Fin M) (hn : n'.val = n.val) :
    pad ⟨1, ![M]⟩ ![0] hi ![0] x v h hu (ix1 n') = x (ix1 n) :=
  pad_apply_of_inside _ _ _ x v h hu _ (ix1 n) (by
    intro a
    have ha : a = 0 := Subsingleton.elim _ _
    subst ha
    show n'.val = 0 + n.val * (0 + 1)
    omega)

/-- The first N entries cut out of a vector of M numbers read, at n, the vector's entry n: a slice from offset 0
    reads position 0 + n. -/
theorem slice_head_apply {N M : ℕ} (x : (⟨1, ![M]⟩ : Shape).Idx → α) (h : (⟨1, ![M]⟩ : Shape).Slices ![0] ⟨1, ![N]⟩) (n : Fin N) (n' : Fin M) (hn : n'.val = n.val) :
    extractStridedSlice ⟨1, ![N]⟩ ![0] x h (ix1 n) = x (ix1 n') :=
  extractStridedSlice_apply _ x h (ix1 n) (ix1 n') (by
    intro a
    have ha : a = 0 := Subsingleton.elim _ _
    subst ha
    show n'.val = 0 + n.val
    omega)

end Idealize.ShloMosaic.PaddedRow
-- ==== Proof.LibGatherRows.lean ====
/-
  A row lookup in a table, read at an index.

  `table[idx]` for a table of `N` rows of `C` numbers and `B` integer row numbers lowers to a `stablehlo.gather` whose
  start indices are a `[B, 1]` array and whose slices are whole rows. Each start index is read as a signed integer and
  clamped into `[0, N - 1]`, so every integer names a row. Two layouts occur:

  * rows kept as rows: operand `[N, C]`, result `[B, C]`; result entry `(b, i)` is entry `i` of the row `idx[b]` names;
  * the table transposed, samples on the last axis: operand `[C, N]`, result `[C, B]`; result entry `(i, b)` is entry
    `i` of the column `idx[b]` names.

  Both read the same number: entry `i` of row `clampRow N idx[b]`.
-/
import Idealize.ShloMosaic.Lib.ValueIdx

noncomputable section

namespace Idealize.ShloMosaic.GatherRows

open Idealize.ShloMosaic Idealize.ShloMosaic.ValueIdx

/-- The row of an `N`-row table a start index names: the word read as a signed integer (a negative one reads as `0`),
    clamped to the last row. -/
def clampRow {w : Nat} (N : Nat) (v : BitVec w) : Nat := min v.toInt.toNat (N - 1)

theorem clampRow_lt {w : Nat} {N : Nat} (hN : 0 < N) (v : BitVec w) : clampRow N v < N := by
  unfold clampRow; omega

/-- An axis of a rank-2 shape is the first or the second. -/
theorem axis2_cases {S : Shape} (h : S.rank = 2) (a : Fin S.rank) :
    a = ⟨0, by omega⟩ ∨ a = ⟨1, by omega⟩ := by
  have h2 : a.val < 2 := h ▸ a.isLt
  rcases Nat.lt_or_ge a.val 1 with h1 | h1
  · left; exact Fin.ext (by show a.val = 0; omega)
  · right; exact Fin.ext (by show a.val = 1; omega)

section
variable {α : Type}

/-- Rows kept as rows: operand `[N, C]`, start indices `[B, 1]`, result `[B, C]`. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The table transposed: operand `[C, N]`, start indices `[B, 1]`, result `[C, B]`. -/
abbrev colDims (N C B : Nat)
    (wf : GatherDims.WF ⟨2, ![C, N]⟩ ⟨2, ![B, 1]⟩ ⟨2, ![C, B]⟩ [0] [1] [] [1] [] 1 ![C, 1]) :
    GatherDims ⟨2, ![C, N]⟩ ⟨2, ![B, 1]⟩ ⟨2, ![C, B]⟩ where
  offsetDims := [0]
  collapsedSliceDims := [1]
  operandBatchingDims := []
  startIndicesBatchingDims := []
  startIndexMap := [1]
  indexVectorDim := 1
  sliceSizes := ![C, 1]
  wf := wf

/-- Result entry `(b, i)` of the row lookup is entry `i` of the row `idx[b]` names. -/
theorem gather_rows_apply {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (i : Fin C) :
    Host.gather (rowDims N C B wf) x idx (ix2 b i)
      = x (ix2 ⟨clampRow N (idx (ix2 b (0 : Fin 1))), clampRow_lt hN _⟩ i) := by
  unfold Host.gather
  congr 1
  funext a
  refine Fin.ext ?_
  show (rowDims N C B wf).start (ix2 b i) idx a + (rowDims N C B wf).batchCoord (ix2 b i) a
      + (rowDims N C B wf).offCoord (ix2 b i) a = _
  rw [GatherDims.batchCoord_eq_zero _ _ _ List.not_mem_nil]
  rcases axis2_cases (S := ⟨2, ![N, C]⟩) rfl a with rfl | rfl
  · rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N C B wf).startIndexMap from List.mem_singleton.mpr rfl)]
    have hsi : (rowDims N C B wf).siIdx (ix2 b i) ⟨List.idxOf (⟨0, by decide⟩ : Fin 2) (rowDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl
  · have hn : ¬ (⟨1, by decide⟩ : Fin 2) ∈ (rowDims N C B wf).startIndexMap :=
      (by decide : ¬ (⟨1, by decide⟩ : Fin 2) ∈ ([0] : List (Fin 2)))
    have hc : ¬ (⟨1, by decide⟩ : Fin 2) ∈ (rowDims N C B wf).collapsedSliceDims :=
      (by decide : ¬ (⟨1, by decide⟩ : Fin 2) ∈ ([0] : List (Fin 2)))
    have h0 : (rowDims N C B wf).start (ix2 b i) idx (⟨1, by decide⟩ : Fin 2) = 0 := by
      unfold GatherDims.start
      rw [dif_neg hn]
    have h1 : (rowDims N C B wf).offCoord (ix2 b i) (⟨1, by decide⟩ : Fin 2) = i.val := by
      unfold GatherDims.offCoord
      rw [dif_pos ((GatherDims.mem_sKept _ _).mpr ⟨hc, List.not_mem_nil⟩)]
      rfl
    show (rowDims N C B wf).start (ix2 b i) idx (⟨1, by decide⟩ : Fin 2) + 0
      + (rowDims N C B wf).offCoord (ix2 b i) (⟨1, by decide⟩ : Fin 2) = i.val
    rw [h0, h1]; omega

/-- Result entry `(i, b)` of the lookup in the transposed table is entry `i` of the column `idx[b]` names. -/
theorem gather_cols_apply {N C B w : Nat} (hN : 0 < N)
    (wf : GatherDims.WF ⟨2, ![C, N]⟩ ⟨2, ![B, 1]⟩ ⟨2, ![C, B]⟩ [0] [1] [] [1] [] 1 ![C, 1])
    (x : (⟨2, ![C, N]⟩ : Shape).Idx → α) (idx : IVec ⟨2, ![B, 1]⟩ w) (i : Fin C) (b : Fin B) :
    Host.gather (colDims N C B wf) x idx (ix2 i b)
      = x (ix2 i ⟨clampRow N (idx (ix2 b (0 : Fin 1))), clampRow_lt hN _⟩) := by
  unfold Host.gather
  congr 1
  funext a
  refine Fin.ext ?_
  show (colDims N C B wf).start (ix2 i b) idx a + (colDims N C B wf).batchCoord (ix2 i b) a
      + (colDims N C B wf).offCoord (ix2 i b) a = _
  rw [GatherDims.batchCoord_eq_zero _ _ _ List.not_mem_nil]
  rcases axis2_cases (S := ⟨2, ![C, N]⟩) rfl a with rfl | rfl
  · have hn : ¬ (⟨0, by decide⟩ : Fin 2) ∈ (colDims N C B wf).startIndexMap :=
      (by decide : ¬ (⟨0, by decide⟩ : Fin 2) ∈ ([1] : List (Fin 2)))
    have hc : ¬ (⟨0, by decide⟩ : Fin 2) ∈ (colDims N C B wf).collapsedSliceDims :=
      (by decide : ¬ (⟨0, by decide⟩ : Fin 2) ∈ ([1] : List (Fin 2)))
    have h0 : (colDims N C B wf).start (ix2 i b) idx (⟨0, by decide⟩ : Fin 2) = 0 := by
      unfold GatherDims.start
      rw [dif_neg hn]
    have h1 : (colDims N C B wf).offCoord (ix2 i b) (⟨0, by decide⟩ : Fin 2) = i.val := by
      unfold GatherDims.offCoord
      rw [dif_pos ((GatherDims.mem_sKept _ _).mpr ⟨hc, List.not_mem_nil⟩)]
      rfl
    show (colDims N C B wf).start (ix2 i b) idx (⟨0, by decide⟩ : Fin 2) + 0
      + (colDims N C B wf).offCoord (ix2 i b) (⟨0, by decide⟩ : Fin 2) = i.val
    rw [h0, h1]; omega
  · rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colDims N C B wf).startIndexMap from List.mem_singleton.mpr rfl)]
    have hsi : (colDims N C B wf).siIdx (ix2 i b) ⟨List.idxOf (⟨1, by decide⟩ : Fin 2) (colDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl

end

end Idealize.ShloMosaic.GatherRows

end
-- ==== Proof.LibGatherVec.lean ====
/-
  A lookup in a vector, read at an index.

  `v[idx]` for a vector of `N` numbers and `B` integer positions lowers to a `stablehlo.gather` whose operand is
  `[N]`, whose start indices are a `[B, 1]` array and whose slices are single entries; the result is `[B]`. Each start
  index is read as a signed integer and clamped into `[0, N - 1]`, so every integer names an entry: result entry `b`
  is entry `clampRow N idx[b]` of the vector — the rank-1 sibling of the row lookup in a table.
-/
import Idealize.ShloMosaic.Lib.ValueIdx
import proofs.«140387_j52286931861627_2_alg».proof.Proof.LibGatherRows

noncomputable section

namespace Idealize.ShloMosaic.GatherRows

open Idealize.ShloMosaic Idealize.ShloMosaic.ValueIdx

section
variable {α : Type}

/-- Operand `[N]`, start indices `[B, 1]`, result `[B]`: single entries, the one axis collapsed. -/
abbrev vecDims (N B : Nat)
    (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- Result entry `b` of the lookup is the entry of the vector that `idx[b]` names. -/
theorem gather_vec_apply {N B w : Nat} (hN : 0 < N)
    (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ w) (b : Fin B) :
    Host.gather (vecDims N B wf) x idx (ix1 b)
      = x (ix1 ⟨clampRow N (idx (ix2 b (0 : Fin 1))), clampRow_lt hN _⟩) := by
  unfold Host.gather
  congr 1
  funext a
  refine Fin.ext ?_
  show (vecDims N B wf).start (ix1 b) idx a + (vecDims N B wf).batchCoord (ix1 b) a
      + (vecDims N B wf).offCoord (ix1 b) a = _
  rw [GatherDims.batchCoord_eq_zero _ _ _ List.not_mem_nil]
  have h1 : a.val < 1 := a.isLt
  have ha : a = (⟨0, by decide⟩ : Fin 1) := Fin.ext (by show a.val = 0; omega)
  subst ha
  rw [GatherDims.offCoord_eq_zero _ _ _ (fun h => ((GatherDims.mem_sKept _ _).mp h).1 (List.mem_singleton.mpr rfl))]
  simp only [Nat.add_zero]
  unfold GatherDims.start
  rw [dif_pos (show (⟨0, by decide⟩ : Fin 1) ∈ (vecDims N B wf).startIndexMap from List.mem_singleton.mpr rfl)]
  have hsi : (vecDims N B wf).siIdx (ix1 b) ⟨List.idxOf (⟨0, by decide⟩ : Fin 1) (vecDims N B wf).startIndexMap,
      List.idxOf_lt_length_iff.2 (List.mem_singleton.mpr rfl)⟩ = ix2 b (0 : Fin 1) := by
    funext d; refine Fin.ext ?_
    match d with
    | ⟨0, _⟩ => rfl
    | ⟨1, _⟩ => rfl
  rw [hsi]
  rfl

end

end Idealize.ShloMosaic.GatherRows

end
-- ==== Proof.LibScatterAddRows.lean ====
/-
  A scatter-add of rows into a table, read at an index.

  table.at[idx].add(updates) for a table of N rows, B integer row numbers and B update rows lowers to a
  stablehlo.scatter with an add body whose scatter indices are a [B, 1] array and whose update windows are whole
  rows. Update row b is added into the table row whose number is the word idx[b] read as a SIGNED integer; the
  word is neither wrapped nor clamped, and an update whose word names no row (negative, or N and above) is dropped.
  So entry (n, ·) of the result is the table's entry plus the sum of the same entry of every update row b with
  idx[b] = n as integers. Two layouts occur: rows of C numbers (operand [N, C], updates [B, C]) and rows that are
  H × D blocks (operand [N, H, D], updates [B, H, D]).

  The route: an update index lands on a table index exactly when, on every axis, its start plus its window
  coordinate is that index's coordinate (resultIdx?_eq_some_iff); for these dimension numbers the start is the row
  word on axis 0 and 0 elsewhere, the window coordinate 0 on axis 0 and the update's own coordinate elsewhere; the
  update indices that land on (n, c) are then exactly (b, c) over the rows b with idx[b] = n.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-! ## Any scatter -/

section
variable {s si u : Shape} (d : ScatterDims s si u)

/-- An update index lands on the operand index i exactly when start plus window coordinate is i's coordinate on
    every axis: the in-range test adds nothing, since i's coordinates are in range. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have hi := Option.some.inj heq
      have ha := h a
      rw [← hi]
      show _ = ((d.start j idx a + (d.window j a : Int)).toNat : Int)
      omega
    · intro hall
      congr 1
      funext a
      refine Fin.ext ?_
      have ha := h a
      have he := hall a
      show (d.start j idx a + (d.window j a : Int)).toNat = (i a).val
      omega
  · rename_i h
    constructor
    · intro heq; cases heq
    · intro hall
      exfalso
      apply h
      intro a
      have he := hall a
      have hlt := (i a).isLt
      omega

/-- The operand axes the update windows go to are the ones that are not inserted. -/
theorem mem_sKept (a : Fin s.rank) : a ∈ d.sKept ↔ a ∉ d.insertedWindowDims := by
  simp [ScatterDims.sKept, Shape.kept, List.mem_filter, List.mem_finRange]

/-- On an axis the scatter indices do not name, the window starts at 0. -/
theorem start_eq_zero {w : Nat} (j : u.Idx) (idx : IVec si w) (a : Fin s.rank)
    (ha : a ∉ d.scatterDimsToOperandDims) : d.start j idx a = 0 := by
  unfold ScatterDims.start; rw [dif_neg ha]

/-- On an inserted axis the window coordinate is 0. -/
theorem window_eq_zero (j : u.Idx) (a : Fin s.rank) (ha : a ∉ d.sKept) : d.window j a = 0 := by
  unfold ScatterDims.window; rw [dif_neg ha]

end

/-! ## Rows of C numbers -/

/-- Operand [N, C], scatter indices [B, 1], updates [B, C]: update row b goes to the row idx[b] names. -/
abbrev rowsDims (N C B : Nat)
    (wf : ScatterDims.WF ⟨2, ![N, C]⟩ ⟨2, ![B, 1]⟩ ⟨2, ![B, C]⟩ [1] [0] [0] 1) :
    ScatterDims ⟨2, ![N, C]⟩ ⟨2, ![B, 1]⟩ ⟨2, ![B, C]⟩ where
  updateWindowDims := [1]
  insertedWindowDims := [0]
  scatterDimsToOperandDims := [0]
  indexVectorDim := 1
  wf := wf

section Rows
variable {N C B w : Nat} (wf : ScatterDims.WF ⟨2, ![N, C]⟩ ⟨2, ![B, 1]⟩ ⟨2, ![B, C]⟩ [1] [0] [0] 1)

/-- The window of update (b, c') starts, on the row axis, at the word idx[b] read signed. -/
theorem rows_start0 (idx : IVec ⟨2, ![B, 1]⟩ w) (b : Fin B) (c' : Fin C) :
    (rowsDims N C B wf).start (ix2 b c') idx (⟨0, by decide⟩ : Fin 2) = (idx (ix2 b (0 : Fin 1))).toInt := by
  unfold ScatterDims.start
  rw [dif_pos (show (⟨0, by decide⟩ : Fin 2) ∈ (rowsDims N C B wf).scatterDimsToOperandDims from
    List.mem_singleton.mpr rfl)]
  have hsi : (rowsDims N C B wf).siIdx (ix2 b c')
      ⟨List.idxOf (⟨0, by decide⟩ : Fin 2) (rowsDims N C B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, c') on the column axis is c'. -/
theorem rows_window1 (b : Fin B) (c' : Fin C) :
    (rowsDims N C B wf).window (ix2 b c') (⟨1, by decide⟩ : Fin 2) = c'.val := by
  unfold ScatterDims.window
  rw [dif_pos ((mem_sKept _ _).mpr (by decide : ¬ (⟨1, by decide⟩ : Fin 2) ∈ ([0] : List (Fin 2))))]
  rfl

/-- Update (b, c') lands on table entry (n, c) exactly when the word idx[b], read signed, is n, and c' = c. -/
theorem rows_lands_iff (idx : IVec ⟨2, ![B, 1]⟩ w) (b : Fin B) (c' : Fin C) (n : Fin N) (c : Fin C) :
    (rowsDims N C B wf).resultIdx? (ix2 b c') idx = some (ix2 n c)
      ↔ (idx (ix2 b (0 : Fin 1))).toInt = (n.val : Int) ∧ c' = c := by
  rw [resultIdx?_eq_some_iff]
  have hw0 : (rowsDims N C B wf).window (ix2 b c') (⟨0, by decide⟩ : Fin 2) = 0 :=
    window_eq_zero _ _ _ (fun h => ((mem_sKept _ _).mp h) (List.mem_singleton.mpr rfl))
  have hs1 : (rowsDims N C B wf).start (ix2 b c') idx (⟨1, by decide⟩ : Fin 2) = 0 :=
    start_eq_zero _ _ _ _ (by decide : ¬ (⟨1, by decide⟩ : Fin 2) ∈ ([0] : List (Fin 2)))
  constructor
  · intro h
    have h0 := h (⟨0, by decide⟩ : Fin 2)
    have h1 := h (⟨1, by decide⟩ : Fin 2)
    rw [rows_start0, hw0] at h0
    rw [hs1, rows_window1] at h1
    refine ⟨?_, Fin.ext ?_⟩
    · have h0' : (idx (ix2 b (0 : Fin 1))).toInt + ((0 : Nat) : Int) = (n.val : Int) := h0
      omega
    · have h1' : (0 : Int) + (c'.val : Int) = (c.val : Int) := h1
      omega
  · rintro ⟨h0, rfl⟩ a
    match a with
    | ⟨0, _⟩ =>
      rw [rows_start0, hw0]
      show _ = (n.val : Int)
      omega
    | ⟨1, _⟩ =>
      rw [hs1, rows_window1]
      show _ = (c'.val : Int)
      omega

/-- Entry (n, c) of the scatter-add: the table's entry plus the sum, over the update rows b whose word idx[b] read
    signed is n, of entry c of update row b. -/
theorem scatterAdd_rows_apply {φ : FTy} (x : (⟨2, ![N, C]⟩ : Shape).Idx → EReal) (idx : IVec ⟨2, ![B, 1]⟩ w)
    (upd : (⟨2, ![B, C]⟩ : Shape).Idx → EReal) (n : Fin N) (c : Fin C) :
    Host.scatterAdd (F := Ideal) (φ := φ) (rowsDims N C B wf) x idx upd (ix2 n c)
      = x (ix2 n c) + ∑ b ∈ Finset.univ.filter (fun b : Fin B => (idx (ix2 b (0 : Fin 1))).toInt = (n.val : Int)),
          upd (ix2 b c) := by
  show x (ix2 n c) + ∑ j ∈ Finset.univ.filter
      (fun j => (rowsDims N C B wf).resultIdx? j idx = some (ix2 n c)), upd j = _
  congr 1
  refine Finset.sum_nbij' (fun j => (j 0 : Fin B)) (fun b => ix2 b c) ?_ ?_ ?_ ?_ ?_
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    exact Finset.mem_filter.mpr ⟨Finset.mem_univ _, h.1⟩
  · intro b hb
    exact Finset.mem_filter.mpr ⟨Finset.mem_univ _,
      (rows_lands_iff wf idx b c n c).mpr ⟨(Finset.mem_filter.mp hb).2, rfl⟩⟩
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show ix2 b c = ix2 b c'
    rw [h.2]
  · intro b _
    rfl
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show upd (ix2 b c') = upd (ix2 b c)
    rw [h.2]

end Rows

/-! ## Rows that are H × D blocks -/

/-- Operand [N, H, D], scatter indices [B, 1], updates [B, H, D]: update block b goes to the row idx[b] names. -/
abbrev rows3Dims (N H D B : Nat)
    (wf : ScatterDims.WF ⟨3, ![N, H, D]⟩ ⟨2, ![B, 1]⟩ ⟨3, ![B, H, D]⟩ [1, 2] [0] [0] 1) :
    ScatterDims ⟨3, ![N, H, D]⟩ ⟨2, ![B, 1]⟩ ⟨3, ![B, H, D]⟩ where
  updateWindowDims := [1, 2]
  insertedWindowDims := [0]
  scatterDimsToOperandDims := [0]
  indexVectorDim := 1
  wf := wf

section Rows3
variable {N H D B w : Nat} (wf : ScatterDims.WF ⟨3, ![N, H, D]⟩ ⟨2, ![B, 1]⟩ ⟨3, ![B, H, D]⟩ [1, 2] [0] [0] 1)

/-- The window of update (b, h', k') starts, on the row axis, at the word idx[b] read signed. -/
theorem rows3_start0 (idx : IVec ⟨2, ![B, 1]⟩ w) (b : Fin B) (h' : Fin H) (k' : Fin D) :
    (rows3Dims N H D B wf).start (ix3 b h' k') idx (⟨0, by decide⟩ : Fin 3) = (idx (ix2 b (0 : Fin 1))).toInt := by
  unfold ScatterDims.start
  rw [dif_pos (show (⟨0, by decide⟩ : Fin 3) ∈ (rows3Dims N H D B wf).scatterDimsToOperandDims from
    List.mem_singleton.mpr rfl)]
  have hsi : (rows3Dims N H D B wf).siIdx (ix3 b h' k')
      ⟨List.idxOf (⟨0, by decide⟩ : Fin 3) (rows3Dims N H D B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, h', k') on the second axis is h'. -/
theorem rows3_window1 (b : Fin B) (h' : Fin H) (k' : Fin D) :
    (rows3Dims N H D B wf).window (ix3 b h' k') (⟨1, by decide⟩ : Fin 3) = h'.val := by
  unfold ScatterDims.window
  rw [dif_pos ((mem_sKept _ _).mpr (by decide : ¬ (⟨1, by decide⟩ : Fin 3) ∈ ([0] : List (Fin 3))))]
  rfl

/-- The window coordinate of update (b, h', k') on the third axis is k'. -/
theorem rows3_window2 (b : Fin B) (h' : Fin H) (k' : Fin D) :
    (rows3Dims N H D B wf).window (ix3 b h' k') (⟨2, by decide⟩ : Fin 3) = k'.val := by
  unfold ScatterDims.window
  rw [dif_pos ((mem_sKept _ _).mpr (by decide : ¬ (⟨2, by decide⟩ : Fin 3) ∈ ([0] : List (Fin 3))))]
  rfl

/-- Update (b, h', k') lands on table entry (n, h, k) exactly when the word idx[b], read signed, is n, and
    (h', k') = (h, k). -/
theorem rows3_lands_iff (idx : IVec ⟨2, ![B, 1]⟩ w) (b : Fin B) (h' : Fin H) (k' : Fin D)
    (n : Fin N) (h : Fin H) (k : Fin D) :
    (rows3Dims N H D B wf).resultIdx? (ix3 b h' k') idx = some (ix3 n h k)
      ↔ (idx (ix2 b (0 : Fin 1))).toInt = (n.val : Int) ∧ h' = h ∧ k' = k := by
  rw [resultIdx?_eq_some_iff]
  have hw0 : (rows3Dims N H D B wf).window (ix3 b h' k') (⟨0, by decide⟩ : Fin 3) = 0 :=
    window_eq_zero _ _ _ (fun hm => ((mem_sKept _ _).mp hm) (List.mem_singleton.mpr rfl))
  have hs1 : (rows3Dims N H D B wf).start (ix3 b h' k') idx (⟨1, by decide⟩ : Fin 3) = 0 :=
    start_eq_zero _ _ _ _ (by decide : ¬ (⟨1, by decide⟩ : Fin 3) ∈ ([0] : List (Fin 3)))
  have hs2 : (rows3Dims N H D B wf).start (ix3 b h' k') idx (⟨2, by decide⟩ : Fin 3) = 0 :=
    start_eq_zero _ _ _ _ (by decide : ¬ (⟨2, by decide⟩ : Fin 3) ∈ ([0] : List (Fin 3)))
  constructor
  · intro hall
    have h0 := hall (⟨0, by decide⟩ : Fin 3)
    have h1 := hall (⟨1, by decide⟩ : Fin 3)
    have h2 := hall (⟨2, by decide⟩ : Fin 3)
    rw [rows3_start0, hw0] at h0
    rw [hs1, rows3_window1] at h1
    rw [hs2, rows3_window2] at h2
    refine ⟨?_, Fin.ext ?_, Fin.ext ?_⟩
    · have h0' : (idx (ix2 b (0 : Fin 1))).toInt + ((0 : Nat) : Int) = (n.val : Int) := h0
      omega
    · have h1' : (0 : Int) + (h'.val : Int) = (h.val : Int) := h1
      omega
    · have h2' : (0 : Int) + (k'.val : Int) = (k.val : Int) := h2
      omega
  · rintro ⟨h0, rfl, rfl⟩ a
    match a with
    | ⟨0, _⟩ =>
      rw [rows3_start0, hw0]
      show _ = (n.val : Int)
      omega
    | ⟨1, _⟩ =>
      rw [hs1, rows3_window1]
      show _ = (h'.val : Int)
      omega
    | ⟨2, _⟩ =>
      rw [hs2, rows3_window2]
      show _ = (k'.val : Int)
      omega

/-- Entry (n, h, k) of the scatter-add: the table's entry plus the sum, over the update blocks b whose word idx[b]
    read signed is n, of entry (h, k) of update block b. -/
theorem scatterAdd_rows3_apply {φ : FTy} (x : (⟨3, ![N, H, D]⟩ : Shape).Idx → EReal) (idx : IVec ⟨2, ![B, 1]⟩ w)
    (upd : (⟨3, ![B, H, D]⟩ : Shape).Idx → EReal) (n : Fin N) (h : Fin H) (k : Fin D) :
    Host.scatterAdd (F := Ideal) (φ := φ) (rows3Dims N H D B wf) x idx upd (ix3 n h k)
      = x (ix3 n h k) + ∑ b ∈ Finset.univ.filter (fun b : Fin B => (idx (ix2 b (0 : Fin 1))).toInt = (n.val : Int)),
          upd (ix3 b h k) := by
  show x (ix3 n h k) + ∑ j ∈ Finset.univ.filter
      (fun j => (rows3Dims N H D B wf).resultIdx? j idx = some (ix3 n h k)), upd j = _
  congr 1
  refine Finset.sum_nbij' (fun j => (j 0 : Fin B)) (fun b => ix3 b h k) ?_ ?_ ?_ ?_ ?_
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    exact Finset.mem_filter.mpr ⟨Finset.mem_univ _, hl.1⟩
  · intro b hb
    exact Finset.mem_filter.mpr ⟨Finset.mem_univ _,
      (rows3_lands_iff wf idx b h k n h k).mpr ⟨(Finset.mem_filter.mp hb).2, rfl, rfl⟩⟩
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show ix3 b h k = ix3 b h' k'
    rw [hl.2.1, hl.2.2]
  · intro b _
    rfl
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show upd (ix3 b h' k') = upd (ix3 b h k)
    rw [hl.2.1, hl.2.2]

end Rows3

end Idealize.ShloMosaic.ScatterAddRows

end
-- ==== Proof.LibScatterAddVec.lean ====
/-
  A scatter-add of numbers into a vector, read at an index.

  vec.at[idx].add(updates) for a vector of N numbers, B integer positions and B update numbers lowers to a
  stablehlo.scatter with an add body whose operand is [N], whose scatter indices are a [B, 1] array and whose updates
  are [B]. Update b is added into the entry whose position is the word idx[b] read as a SIGNED integer; the word is
  neither wrapped nor clamped, and an update whose word names no entry (negative, or N and above) is dropped. So entry
  n of the result is the vector's entry plus the sum of every update b with idx[b] = n as integers — the rank-1
  sibling of the scatter-add of rows into a table, on the same route: an update lands on n exactly when its start (the
  word, on the one axis) plus its window coordinate (0, the axis being inserted) is n.
-/
import Idealize.ShloMosaic.PureOps.Ideal
import Idealize.ShloMosaic.Lib.ValueIdx
import proofs.«140387_j52286931861627_2_alg».proof.Proof.LibScatterAddRows

noncomputable section

open scoped BigOperators

namespace Idealize.ShloMosaic.ScatterAddRows

open Idealize.ShloMosaic Idealize.ShloMosaic.ValueIdx

/-- Operand [N], scatter indices [B, 1], updates [B]: update b goes to the entry idx[b] names. -/
abbrev vecDims (N B : Nat)
    (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

section Vec
variable {N B w : Nat} (wf : ScatterDims.WF ⟨1, ![N]⟩ ⟨2, ![B, 1]⟩ ⟨1, ![B]⟩ [] [0] [0] 1)

/-- The window of update b starts at the word idx[b] read signed. -/
theorem vec_start0 (idx : IVec ⟨2, ![B, 1]⟩ w) (b : Fin B) :
    (vecDims N B wf).start (ix1 b) idx (⟨0, by decide⟩ : Fin 1) = (idx (ix2 b (0 : Fin 1))).toInt := by
  unfold ScatterDims.start
  rw [dif_pos (show (⟨0, by decide⟩ : Fin 1) ∈ (vecDims N B wf).scatterDimsToOperandDims from
    List.mem_singleton.mpr rfl)]
  have hsi : (vecDims N B wf).siIdx (ix1 b)
      ⟨List.idxOf (⟨0, by decide⟩ : Fin 1) (vecDims N B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- Update b lands on entry n exactly when the word idx[b], read signed, is n. -/
theorem vec_lands_iff (idx : IVec ⟨2, ![B, 1]⟩ w) (b : Fin B) (n : Fin N) :
    (vecDims N B wf).resultIdx? (ix1 b) idx = some (ix1 n)
      ↔ (idx (ix2 b (0 : Fin 1))).toInt = (n.val : Int) := by
  rw [resultIdx?_eq_some_iff]
  have hw0 : (vecDims N B wf).window (ix1 b) (⟨0, by decide⟩ : Fin 1) = 0 :=
    window_eq_zero _ _ _ (fun h => ((mem_sKept _ _).mp h) (List.mem_singleton.mpr rfl))
  constructor
  · intro h
    have h0 := h (⟨0, by decide⟩ : Fin 1)
    rw [vec_start0, hw0] at h0
    have h0' : (idx (ix2 b (0 : Fin 1))).toInt + ((0 : Nat) : Int) = (n.val : Int) := h0
    omega
  · intro h0 a
    match a with
    | ⟨0, _⟩ =>
      rw [vec_start0, hw0]
      show _ = (n.val : Int)
      omega

/-- Entry n of the scatter-add: the vector's entry plus the sum, over the updates b whose word idx[b] read signed is
    n, of update b. -/
theorem scatterAdd_vec_apply {φ : FTy} (x : (⟨1, ![N]⟩ : Shape).Idx → EReal) (idx : IVec ⟨2, ![B, 1]⟩ w)
    (upd : (⟨1, ![B]⟩ : Shape).Idx → EReal) (n : Fin N) :
    Host.scatterAdd (F := Ideal) (φ := φ) (vecDims N B wf) x idx upd (ix1 n)
      = x (ix1 n) + ∑ b ∈ Finset.univ.filter (fun b : Fin B => (idx (ix2 b (0 : Fin 1))).toInt = (n.val : Int)),
          upd (ix1 b) := by
  show x (ix1 n) + ∑ j ∈ Finset.univ.filter
      (fun j => (vecDims N B wf).resultIdx? j idx = some (ix1 n)), upd j = _
  congr 1
  refine Finset.sum_nbij' (fun j => (j 0 : Fin B)) (fun b => ix1 b) ?_ ?_ ?_ ?_ ?_
  · intro j hj
    obtain ⟨b, rfl⟩ : ∃ b : Fin B, j = ix1 b := ⟨j 0, eq_ix1 j⟩
    exact Finset.mem_filter.mpr ⟨Finset.mem_univ _, (vec_lands_iff wf idx b n).mp (Finset.mem_filter.mp hj).2⟩
  · intro b hb
    exact Finset.mem_filter.mpr ⟨Finset.mem_univ _, (vec_lands_iff wf idx b n).mpr (Finset.mem_filter.mp hb).2⟩
  · intro j _
    exact (eq_ix1 j).symm
  · intro b _
    rfl
  · intro j _
    exact congrArg upd (eq_ix1 j)

end Vec

end Idealize.ShloMosaic.ScatterAddRows

end
-- ==== Proof.Edges.lean ====
/-
  The graph an edge list describes, as the lookups and scatter-adds of the two programs read it.

  An edge list is two arrays of 1,600,000 integer words over 100,000 nodes, each laid out as a [1600000, 1] column:
  `srcw`, the words naming each edge's source node (as they reach the lookup: a word is read signed and clamped into
  the node range, so every word names a node), and `dstw`, the words naming each edge's target (as they reach the
  scatter-add: a word is read signed, and an edge whose word names no node ends nowhere).
-/
import Idealize.ShloMosaic.Lib.ValueIdx
import proofs.«140387_j52286931861627_2_alg».proof.Proof.LibGatherRows

noncomputable section

namespace Cert.GraphConv

open Idealize.ShloMosaic Idealize.ShloMosaic.ValueIdx Idealize.ShloMosaic.GatherRows

/-- The node edge `e` starts at: its source word, clamped into the node range. -/
def srcNode (srcw : IVec ⟨2, ![1600000, 1]⟩ 32) (e : Fin 1600000) : Fin 100000 :=
  ⟨clampRow 100000 (srcw (ix2 e (0 : Fin 1))), clampRow_lt (by decide) _⟩

/-- The edges that end at node `n`: those whose target word, read signed, is `n`. -/
def inEdges (dstw : IVec ⟨2, ![1600000, 1]⟩ 32) (n : Fin 100000) : Finset (Fin 1600000) :=
  Finset.univ.filter fun e : Fin 1600000 => (dstw (ix2 e (0 : Fin 1))).toInt = (n.val : Int)

end Cert.GraphConv

end
-- ==== Proof.HostValues.lean ====
/-
  The values the host program hands between its stretches and launches, and each of them read at a node.

  Around the two launches the host program only re-lays arrays and sums over the edge list. Its values are named
  here as functions of their operands: the two rows of the edge list as vectors, the source words wrapped (a negative
  word has the node count added) and the target words, each standing as a column of 1600000 words; the node features
  flattened; a node vector summed over the edge list (each edge adds its source's entry into its target's entry of a
  vector of zeros); a node vector padded with 2400 zeros and laid out as one row of 102400 for a launch; the first
  100000 entries of such a row cut out again; a node vector standing as a column; the weight vectors standing as
  columns and the second bias as a one-by-one matrix.

  Read at node `n`, each layout step returns one entry of its operand, and the sum over the edge list returns the sum,
  over the edges whose target word names `n`, of the operand's entry at the edge's source (a source word is clamped
  into the node range; the zero the sum starts from is dropped).
-/
import proofs.«140387_j52286931861627_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«140387_j52286931861627_2_alg».proof.Proof.LibColumn
import proofs.«140387_j52286931861627_2_alg».proof.Proof.LibPaddedRow
import proofs.«140387_j52286931861627_2_alg».proof.Proof.LibGatherVec
import proofs.«140387_j52286931861627_2_alg».proof.Proof.LibScatterAddVec
import proofs.«140387_j52286931861627_2_alg».proof.Proof.Edges

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.ValueIdx Idealize.ShloMosaic.GatherRows Idealize.ShloMosaic.ScatterAddRows
open Idealize.ShloMosaic.PaddedRow Cert.GraphConv

/-! ## The arguments on a core -/

section
variable (m : (ℓ : Loc nD τ sig) → Buf (Elt Ideal) ℓ)

abbrev argX (c : Dev nD) : FVec Ideal S100000x1 .f32 := m ((c : Thread nD τ).loc main_arg0)
abbrev argEI (c : Dev nD) : IVec S2x1600000 32 := m ((c : Thread nD τ).loc main_arg1)
abbrev argW1 (c : Dev nD) : FVec Ideal S128x1 .f32 := m ((c : Thread nD τ).loc main_arg2)
abbrev argB1 (c : Dev nD) : FVec Ideal S128 .f32 := m ((c : Thread nD τ).loc main_arg3)
abbrev argW1r (c : Dev nD) : FVec Ideal S128x1 .f32 := m ((c : Thread nD τ).loc main_arg4)
abbrev argW2 (c : Dev nD) : FVec Ideal S1x128 .f32 := m ((c : Thread nD τ).loc main_arg5)
abbrev argB2 (c : Dev nD) : FVec Ideal S1 .f32 := m ((c : Thread nD τ).loc main_arg6)
abbrev argW2r (c : Dev nD) : FVec Ideal S1x128 .f32 := m ((c : Thread nD τ).loc main_arg7)

end

/-! ## The host stretches' values, as functions of the arguments -/

/-- Row 0 of the edge list as a vector of 1600000 words: the sources. -/
def srcVec (ei : IVec S2x1600000 32) : IVec S1600000 32 :=
  shapeCast S1600000 (extractStridedSlice S1x1600000 ![0, 0] ei slices_S2x1600000_S1x1600000_0_0) shapeCasts_S1x1600000_S1600000

/-- Row 1 of the edge list: the targets. -/
def dstVec (ei : IVec S2x1600000 32) : IVec S1600000 32 :=
  shapeCast S1600000 (extractStridedSlice S1x1600000 ![1, 0] ei slices_S2x1600000_S1x1600000_1_0) shapeCasts_S1x1600000_S1600000

/-- The source words as they reach a lookup: a negative word has the node count added, and the words stand as a column. -/
def srcCol (sv : IVec S1600000 32) : IVec S1600000x1 32 :=
  broadcastInDim S1600000x1 ![0] bcast_S1600000_S1600000x1_0
    (select (cmpi .slt sv (broadcastInDim S1600000 ![] bcast_S_S1600000 (constantI S_ 32 0#32)))
      (addi sv (broadcastInDim S1600000 ![] bcast_S_S1600000 (constantI S_ 32 100000#32))) sv)

/-- The target words as they reach a scatter-add: as they are, standing as a column. -/
def dstCol (dv : IVec S1600000 32) : IVec S1600000x1 32 :=
  broadcastInDim S1600000x1 ![0] bcast_S1600000_S1600000x1_0 dv

/-- The node features as a vector. -/
def flatX (x0 : FVec Ideal S100000x1 .f32) : FVec Ideal S100000 .f32 := shapeCast S100000 x0 shapeCasts_S100000x1_S100000

/-- A node vector summed over the edge list: every edge adds its source's entry into its target's entry of a vector of
    zeros. -/
def aggVec (sv dv : IVec S1600000 32) (y : FVec Ideal S100000 .f32) : FVec Ideal S100000 .f32 :=
  Host.scatterAdd (F := Ideal) scatter_S100000_S1600000x1_S1600000_n_0_0_1
    (broadcastInDim S100000 ![] bcast_S_S100000 (constant (F := Ideal) S_ .f32 0x00000000#32)) (dstCol dv)
    (Host.gather gather_S100000_S1600000x1_S1600000_n_0_n_n_0_1_1 y (srcCol sv))

/-- A node vector padded with 2400 trailing zeros and laid out as one row of 102400. -/
def padRow (y : FVec Ideal S100000 .f32) : FVec Ideal S1x102400 .f32 :=
  shapeCast S1x102400 (pad S102400 ![0] ![2400] ![0] y (sitofp (F := Ideal) .f32 (constantI S_ 32 0#32)) pads_S100000_S102400_024000 h_S_)
    shapeCasts_S102400_S1x102400

/-- The first 100000 entries of a row of 102400, as a vector. -/
def headVec (r : FVec Ideal S1x102400 .f32) : FVec Ideal S100000 .f32 :=
  extractStridedSlice S100000 ![0] (shapeCast S102400 r shapeCasts_S1x102400_S102400) slices_S102400_S100000_0

/-- A node vector standing as a column. -/
def asCol (y : FVec Ideal S100000 .f32) : FVec Ideal S100000x1 .f32 := shapeCast S100000x1 y shapeCasts_S100000_S100000x1

/-- A vector of 128 numbers standing as a column. -/
def colOfVec (b : FVec Ideal S128 .f32) : FVec Ideal S128x1 .f32 := shapeCast S128x1 b shapeCasts_S128_S128x1

/-- A row of 128 numbers stood up as a column. -/
def colOfRow (w : FVec Ideal S1x128 .f32) : FVec Ideal S128x1 .f32 := shapeCast S128x1 w shapeCasts_S1x128_S128x1

/-- One number as a one-by-one matrix. -/
def matOfScalar (b : FVec Ideal S1 .f32) : FVec Ideal S1x1 .f32 := shapeCast S1x1 b shapeCasts_S1_S1x1

/-! ## Read at a node -/

/-- Node `n` as an entry of a padded row of 102400. -/
def up (n : Fin 100000) : Fin 102400 := ⟨n.val, by have := n.isLt; omega⟩

theorem asCol_apply (y : FVec Ideal S100000 .f32) (n : Fin 100000) : asCol y (ix2 n (0 : Fin 1)) = y (ix1 n) :=
  Column.shapeCast_a_a1_apply y shapeCasts_S100000_S100000x1 n 0

theorem headVec_apply (r : FVec Ideal S1x102400 .f32) (n : Fin 100000) :
    headVec r (ix1 n) = r (ix2 (0 : Fin 1) (up n)) := by
  unfold headVec
  rw [slice_head_apply _ slices_S102400_S100000_0 n (up n) rfl, shapeCast_1a_a_apply]

theorem padRow_apply (y : FVec Ideal S100000 .f32) (n : Fin 100000) :
    padRow y (ix2 (0 : Fin 1) (up n)) = y (ix1 n) := by
  unfold padRow
  rw [shapeCast_a_1a_apply, pad_tail_apply ![2400] y _ pads_S100000_S102400_024000 h_S_ n (up n) rfl]

theorem flatX_apply (x0 : FVec Ideal S100000x1 .f32) (n : Fin 100000) : flatX x0 (ix1 n) = x0 (ix2 n (0 : Fin 1)) :=
  shapeCast_a1_a_apply x0 shapeCasts_S100000x1_S100000 n

theorem colOfVec_apply (b : FVec Ideal S128 .f32) (j : Fin 128) : colOfVec b (ix2 j (0 : Fin 1)) = b (ix1 j) :=
  Column.shapeCast_a_a1_apply b shapeCasts_S128_S128x1 j 0

theorem colOfRow_apply (w : FVec Ideal S1x128 .f32) (j : Fin 128) :
    colOfRow w (ix2 j (0 : Fin 1)) = w (ix2 (0 : Fin 1) j) :=
  shapeCast_1a_a1_apply w shapeCasts_S1x128_S128x1 j 0

theorem matOfScalar_apply (b : FVec Ideal S1 .f32) :
    matOfScalar b (ix2 (0 : Fin 1) (0 : Fin 1)) = b (ix1 (0 : Fin 1)) :=
  Column.shapeCast_a_a1_apply b shapeCasts_S1_S1x1 0 0

/-- A node vector summed over the edge list, at node `n`: the sum over the edges into `n` of the vector's entry at the
    edge's source. -/
theorem aggVec_apply (sv dv : IVec S1600000 32) (y : FVec Ideal S100000 .f32) (n : Fin 100000) :
    aggVec sv dv y (ix1 n) = ∑ e ∈ inEdges (dstCol dv) n, y (ix1 (srcNode (srcCol sv) e)) := by
  unfold aggVec
  refine (scatterAdd_vec_apply (N := 100000) (B := 1600000) (φ := .f32) scatter_S100000_S1600000x1_S1600000_n_0_0_1_wf
    _ (dstCol dv) _ n).trans ?_
  rw [Column.broadcastInDim_scalar_apply, constant_apply, Ideal.ofBits_zero_f32, zero_add]
  refine Finset.sum_congr rfl fun e _ => ?_
  exact gather_vec_apply (N := 100000) (B := 1600000) (by decide) gather_S100000_S1600000x1_S1600000_n_0_n_n_0_1_1_wf
    y (srcCol sv) e

end Cert.KernelIdeal.Stages

end
-- ==== Proof.StretchFirst.lean ====
/-
  The first stretch of host operations, read back.

  The first stretch cuts the edge list into its two rows, wraps the source words, flattens the node features, looks
  them up along the edges and sums them into their targets: the first aggregate. Its values are the named functions of
  the arguments.
-/
import proofs.«140387_j52286931861627_2_alg».proof.Proof.HostValues
import Idealize.ShloMosaic.Lib.StableHlo.Run

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

set_option maxHeartbeats 1000000 in
/-- The first aggregate: the node features summed over the edge list. -/
theorem stretch0_v14 : W1 m ρ c (Proc.devRef .tc main_v14)
    = aggVec (srcVec (argEI m c)) (dstVec (argEI m c)) (flatX (argX m c)) := by
  dsimp only [W1, hostOps0]
  after_results
  rfl

set_option maxHeartbeats 400000 in
theorem stretch0_v4 : W1 m ρ c (Proc.devRef .tc main_v4) = flatX (argX m c) := by
  dsimp only [W1, hostOps0]
  after_results
  rfl

set_option maxHeartbeats 400000 in
theorem stretch0_c1 : W1 m ρ c (Proc.devRef .tc main_c_1) = constantI S_ 32 0#32 := by
  dsimp only [W1, hostOps0]
  after_results

end Cert.KernelIdeal.Stages

end
-- ==== Proof.EntryFirstRows.lean ====
/-
  The two node rows the first launch is entered with: the first aggregate and the node features, each padded with 2400
  zeros and laid out as one row of 102400.
-/
import proofs.«140387_j52286931861627_2_alg».proof.Proof.HostValues
import proofs.«140387_j52286931861627_2_alg».proof.Proof.StretchFirst
import Idealize.ShloMosaic.Lib.StableHlo.Run

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

/-- Whatever the first stretch left, if it left `A` as the first aggregate and the zero word as the padding value, the
    next four stretches hand the launch `A` padded and laid out as a row. -/
theorem padded_aggregate (V1 : Valuation τ sig (Elt Ideal)) (A : FVec Ideal S100000 .f32)
    (h14 : V1 (Proc.devRef .tc main_v14) = A) (hc1 : V1 (Proc.devRef .tc main_c_1) = constantI S_ 32 0#32) :
    StableHlo.after (hostOps0_4 (F := Ideal)) (StableHlo.after hostOps0_3 (StableHlo.after hostOps0_2 (StableHlo.after hostOps0_1 V1)))
      (Proc.devRef .tc main_v16) = padRow A := by
  dsimp only [hostOps0_4, hostOps0_3, hostOps0_2, hostOps0_1]
  after_results
  rw [h14, hc1]
  rfl

/-- Likewise for the flattened node features. -/
theorem padded_features (V1 : Valuation τ sig (Elt Ideal)) (A : FVec Ideal S100000 .f32)
    (h4 : V1 (Proc.devRef .tc main_v4) = A) :
    StableHlo.after (hostOps0_4 (F := Ideal)) (StableHlo.after hostOps0_3 (StableHlo.after hostOps0_2 (StableHlo.after hostOps0_1 V1)))
      (Proc.devRef .tc main_v18) = padRow A := by
  dsimp only [hostOps0_4, hostOps0_3, hostOps0_2, hostOps0_1]
  after_results
  rw [h4]
  rfl

theorem entry0_v16 : W5 m ρ c (Proc.devRef .tc main_v16)
    = padRow (aggVec (srcVec (argEI m c)) (dstVec (argEI m c)) (flatX (argX m c))) :=
  padded_aggregate (W1 m ρ c) _ (stretch0_v14 m ρ c) (stretch0_c1 m ρ c)

theorem entry0_v18 : W5 m ρ c (Proc.devRef .tc main_v18) = padRow (flatX (argX m c)) :=
  padded_features (W1 m ρ c) _ (stretch0_v4 m ρ c)

end Cert.KernelIdeal.Stages

end
-- ==== Proof.EntryFirstCols.lean ====
/-
  The five weight columns the first launch is entered with: the first layer's two weight columns as they are, its bias
  standing as a column, and the second layer's two weight rows stood up as columns.
-/
import proofs.«140387_j52286931861627_2_alg».proof.Proof.HostValues
import proofs.«140387_j52286931861627_2_alg».proof.Proof.EntryFirstRows
import Idealize.ShloMosaic.Lib.StableHlo.Run

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

set_option maxHeartbeats 400000 in
theorem entry0_arg2 : W5 m ρ c (Proc.devRef .tc main_arg2) = argW1 m c := by
  dsimp only [W5, W4, W3, W2, W1, W0, hostOps0_4, hostOps0_3, hostOps0_2, hostOps0_1, hostOps0]
  after_results

set_option maxHeartbeats 400000 in
theorem entry0_arg4 : W5 m ρ c (Proc.devRef .tc main_arg4) = argW1r m c := by
  dsimp only [W5, W4, W3, W2, W1, W0, hostOps0_4, hostOps0_3, hostOps0_2, hostOps0_1, hostOps0]
  after_results

set_option maxHeartbeats 400000 in
theorem entry0_v19 : W5 m ρ c (Proc.devRef .tc main_v19) = colOfVec (argB1 m c) := by
  dsimp only [W5, W4, W3, W2, W1, W0, hostOps0_4, hostOps0_3, hostOps0_2, hostOps0_1, hostOps0]
  after_results
  rfl

set_option maxHeartbeats 400000 in
theorem entry0_v20 : W5 m ρ c (Proc.devRef .tc main_v20) = colOfRow (argW2 m c) := by
  dsimp only [W5, W4, W3, W2, W1, W0, hostOps0_4, hostOps0_3, hostOps0_2, hostOps0_1, hostOps0]
  after_results
  rfl

set_option maxHeartbeats 400000 in
theorem entry0_v21 : W5 m ρ c (Proc.devRef .tc main_v21) = colOfRow (argW2r m c) := by
  dsimp only [W5, W4, W3, W2, W1, W0, hostOps0_4, hostOps0_3, hostOps0_2, hostOps0_1, hostOps0]
  after_results
  rfl

end Cert.KernelIdeal.Stages

end
-- ==== Proof.EntryFirstKept.lean ====
/-
  What the stretches before the first launch leave for later: the edge list's two rows as vectors, and the second bias
  untouched.
-/
import proofs.«140387_j52286931861627_2_alg».proof.Proof.HostValues
import proofs.«140387_j52286931861627_2_alg».proof.Proof.EntryFirstCols
import Idealize.ShloMosaic.Lib.StableHlo.Run

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

set_option maxHeartbeats 400000 in
theorem entry0_v1 : W5 m ρ c (Proc.devRef .tc main_v1) = srcVec (argEI m c) := by
  dsimp only [W5, W4, W3, W2, W1, W0, hostOps0_4, hostOps0_3, hostOps0_2, hostOps0_1, hostOps0]
  after_results
  rfl

set_option maxHeartbeats 400000 in
theorem entry0_v3 : W5 m ρ c (Proc.devRef .tc main_v3) = dstVec (argEI m c) := by
  dsimp only [W5, W4, W3, W2, W1, W0, hostOps0_4, hostOps0_3, hostOps0_2, hostOps0_1, hostOps0]
  after_results
  rfl

set_option maxHeartbeats 400000 in
theorem entry0_arg6 : W5 m ρ c (Proc.devRef .tc main_arg6) = argB2 m c := by
  dsimp only [W5, W4, W3, W2, W1, W0, hostOps0_4, hostOps0_3, hostOps0_2, hostOps0_1, hostOps0]
  after_results

end Cert.KernelIdeal.Stages

end
-- ==== Proof.EntryFirst.lean ====
/-
  What the first launch is entered with: its two node rows, its five weight columns, and what is carried past it.
-/
import proofs.«140387_j52286931861627_2_alg».proof.Proof.EntryFirstKept
-- ==== Proof.LibColumnSum.lean ====
/-
  A sum down the columns of a matrix, read at an index.

  Summing an `[a, b]` array along its first axis leaves a `[b]` array whose entry `q` is the sum, over the rows `k`, of
  the array's entry `(k, q)`. A vector sum of this kind starts from the neutral zero, which the reading over the
  extended reals drops, so the entry is exactly that sum over `k : Fin a`.
-/
import Idealize.ShloMosaic.Lib.ValueIdx
import Idealize.ShloMosaic.PureOps.Ideal.Laws

noncomputable section

open scoped BigOperators

namespace Idealize.ShloMosaic.ColumnSum

open Idealize.ShloMosaic Idealize.ShloMosaic.ValueIdx

/-- The index of the `[a, b]` array that lies over entry `q` of the sum with coordinate `k` on the summed axis
    is `(k, q)`. -/
theorem lift_first_axis {a b : Nat} (h : (⟨2, ![a, b]⟩ : Shape).Reduces [(0 : Fin 2)] ⟨1, ![b]⟩) (q : Fin b) (k : Fin a) :
    h.lift (ix1 q) k = ix2 k q := by
  funext c
  refine Fin.ext ?_
  match c with
  | ⟨0, _⟩ => rfl
  | ⟨1, _⟩ => rfl

/-- Entry `q` of the sum of an `[a, b]` array along its first axis is the sum over the rows of the entries `(k, q)`. -/
theorem multiReduction_add_first_axis_apply {a b : Nat} {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (q : Fin b) :
    multiReduction .add [(0 : Fin 2)] ⟨1, ![b]⟩ src acc h hφ hacc (ix1 q) = ∑ k : Fin a, src (ix2 k q) := by
  refine (Ideal.multiReduction_add_single src acc h hφ hacc (ix1 q)).trans ?_
  show ∑ k : Fin a, src (h.lift (ix1 q) k) = ∑ k : Fin a, src (ix2 k q)
  exact Finset.sum_congr rfl fun k _ => congrArg src (lift_first_axis h q k)

end Idealize.ShloMosaic.ColumnSum

end
-- ==== Proof.Projections.lean ====
/-
  The first launch: every node's hidden column and its two projections.

  The launch is entered with two padded rows of 102400 = 40 · 2560 numbers — the nodes' first aggregates `a` and their
  own features `x` — and five columns of 128 numbers: the first layer's weights `w1`, bias `b1` and second weights
  `w1r`, and the second layer's two weight vectors `w2`, `w2r` stood up as columns. For the node on lane `q` the body
  forms the hidden column `max (a q · w1 j + b1 j + x q · w1r j) 0` over the 128 hidden units `j`, never stores it, and
  stores its two projections, `∑ j, hidden j · w2 j` and `∑ j, hidden j · w2r j`. A sum down the hidden units starts
  from the neutral zero, which the reading over the extended reals drops.

  Each of the 40 grid points handles 2560 consecutive nodes; the output blocks tile the two result rows. So after the
  launch each result row is ONE function of the arrays the launch was entered with (`final7`, `final8`), whatever
  those arrays are: the lemmas are stated at arbitrary entry contents `V`.
-/
import proofs.«140387_j52286931861627_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«140387_j52286931861627_2_alg».proof.Proof.LibColumn
import proofs.«140387_j52286931861627_2_alg».proof.Proof.LibColumnSum

set_option maxRecDepth 16384

noncomputable section

open scoped BigOperators

namespace Cert.KernelIdeal.Projections

open Cert.KernelIdeal Cert.KernelIdeal.Gen Idealize.ShloMosaic Idealize.ShloMosaic.TcCoe Idealize.SL.Sem
open Idealize.ShloMosaic.ValueIdx
open Idealize.ShloMosaic.Pipeline (Dat)

/-! ## The body at an index -/

/-- Hidden unit `j` of the node on lane `q`: the node's aggregate times the unit's first weight, plus its bias, plus the
    node's own feature times the unit's second weight, cut off below at 0. -/
theorem hidden_apply (a x : FVec Ideal S1x2560 .f32) (w1 b1 w1r : FVec Ideal S128x1 .f32) (j : Fin 128) (q : Fin 2560) :
    k0_pay1 (F := Ideal) a x w1 b1 w1r (ix2 j q)
      = max ((a (ix2 (0 : Fin 1) q) * w1 (ix2 j (0 : Fin 1)) + b1 (ix2 j (0 : Fin 1)))
          + x (ix2 (0 : Fin 1) q) * w1r (ix2 j (0 : Fin 1))) 0 := by
  unfold k0_pay1
  simp only [shapeCast_self]
  show max ((broadcastTo S128x2560 a broadcasts_S1x2560_S128x2560 (ix2 j q)
          * broadcastTo S128x2560 w1 broadcasts_S128x1_S128x2560 (ix2 j q)
        + broadcastTo S128x2560 b1 broadcasts_S128x1_S128x2560 (ix2 j q))
      + broadcastTo S128x2560 x broadcasts_S1x2560_S128x2560 (ix2 j q)
          * broadcastTo S128x2560 w1r broadcasts_S128x1_S128x2560 (ix2 j q))
      (Ideal.ofBits .f32 0x00000000#32) = _
  rw [broadcastTo_1b_ab_apply, broadcastTo_1b_ab_apply, Column.broadcastTo_a1_ab_apply, Column.broadcastTo_a1_ab_apply,
    Column.broadcastTo_a1_ab_apply, Ideal.ofBits_zero_f32]

/-- The hidden column of the node on lane `q` projected onto a weight column `w`: the sum over the hidden units of the
    unit's value times its weight. Both stored rows of the body are this, with their own `w`. -/
theorem projection_apply (h : FVec Ideal S128x2560 .f32) (w : FVec Ideal S128x1 .f32) (u : Fin 1) (q : Fin 2560) :
    shapeCast S1x2560 (multiReduction .add [0] S2560
        (mulf h (broadcastTo S128x2560 (shapeCast S128x1 w shapeCasts_S128x1_S128x1) broadcasts_S128x1_S128x2560))
        0x00000000#32 reduces_S128x2560_S2560 (.inl rfl) rfl) shapeCasts_S2560_S1x2560 (ix2 u q)
      = ∑ j : Fin 128, h (ix2 j q) * w (ix2 j (0 : Fin 1)) := by
  rw [shapeCast_a_1a_apply]
  refine (ColumnSum.multiReduction_add_first_axis_apply (φ := .f32) _ 0x00000000#32 reduces_S128x2560_S2560 (.inl rfl) rfl q).trans ?_
  refine Finset.sum_congr rfl fun j _ => ?_
  show h (ix2 j q) * broadcastTo S128x2560 (shapeCast S128x1 w shapeCasts_S128x1_S128x1) broadcasts_S128x1_S128x2560 (ix2 j q) = _
  rw [Column.broadcastTo_a1_ab_apply, shapeCast_self]

/-- The first stored row at lane `q`. -/
theorem pay2_apply (a x : FVec Ideal S1x2560 .f32) (w1 b1 w1r w2 : FVec Ideal S128x1 .f32) (u : Fin 1) (q : Fin 2560) :
    k0_pay2 (F := Ideal) a x w1 b1 w1r w2 (ix2 u q)
      = ∑ j : Fin 128, max ((a (ix2 (0 : Fin 1) q) * w1 (ix2 j (0 : Fin 1)) + b1 (ix2 j (0 : Fin 1)))
          + x (ix2 (0 : Fin 1) q) * w1r (ix2 j (0 : Fin 1))) 0 * w2 (ix2 j (0 : Fin 1)) := by
  unfold k0_pay2
  refine (projection_apply (k0_pay1 (F := Ideal) a x w1 b1 w1r) w2 u q).trans ?_
  refine Finset.sum_congr rfl fun j _ => ?_
  rw [hidden_apply]

/-- The second stored row at lane `q`. -/
theorem pay3_apply (a x : FVec Ideal S1x2560 .f32) (w1 b1 w1r w2r : FVec Ideal S128x1 .f32) (u : Fin 1) (q : Fin 2560) :
    k0_pay3 (F := Ideal) a x w1 b1 w1r w2r (ix2 u q)
      = ∑ j : Fin 128, max ((a (ix2 (0 : Fin 1) q) * w1 (ix2 j (0 : Fin 1)) + b1 (ix2 j (0 : Fin 1)))
          + x (ix2 (0 : Fin 1) q) * w1r (ix2 j (0 : Fin 1))) 0 * w2r (ix2 j (0 : Fin 1)) := by
  unfold k0_pay3
  refine (projection_apply (k0_pay1 (F := Ideal) a x w1 b1 w1r) w2r u q).trans ?_
  refine Finset.sum_congr rfl fun j _ => ?_
  rw [hidden_apply]

/-! ## From blocks to the arrays

Each of the 40 grid points handles 2560 consecutive nodes of the padded rows (102400 = 40 · 2560): it reads the two
node rows at block `(0, t)`, the five weight columns whole, and writes the two output rows at block `(0, t)`. -/

/-- One node's projection onto a weight column `w`, as a whole padded row: at node `i`, the sum over the hidden units of
    the unit's value `max (a i · w1 j + b1 j + x i · w1r j) 0` times `w j`. -/
def projRow (a x : S1x102400.Idx → EReal) (w1 b1 w1r w : S128x1.Idx → EReal) : S1x102400.Idx → EReal :=
  fun i => ∑ j : Fin 128, max ((a i * w1 (ix2 j (0 : Fin 1)) + b1 (ix2 j (0 : Fin 1))) + x i * w1r (ix2 j (0 : Fin 1))) 0
    * w (ix2 j (0 : Fin 1))

theorem hz : (![0, 0] : Fin 2 → Nat) = fun _ => 0 := funext fun a => by fin_cases a <;> rfl

/-! The printed index maps, decided over the 40 grid points: a node window sits at block `(0, t)`, a weight window at
    block `(0, 0)`. -/
theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx7 : ∀ t : Fin cfg0.N, win0_7.index t (0 : Fin 2) = 0 ∧ win0_7.index t (1 : Fin 2) = t.val :=
  (by decide +kernel : ∀ t : Fin grid0.N, win0_7.index t (0 : Fin 2) = 0 ∧ win0_7.index t (1 : Fin 2) = t.val)
theorem idx8 : ∀ t : Fin cfg0.N, win0_8.index t (0 : Fin 2) = 0 ∧ win0_8.index t (1 : Fin 2) = t.val :=
  (by decide +kernel : ∀ t : Fin grid0.N, win0_8.index t (0 : Fin 2) = 0 ∧ win0_8.index t (1 : Fin 2) = t.val)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Lane `q` of grid point `t` is node `t · 2560 + q` of the padded row. -/
def lane (t : Fin cfg0.N) (q : Fin 2560) : Fin 102400 :=
  ⟨t.val * 2560 + q.val, by
    have ht : t.val < cfg0.N := t.isLt
    have hN : cfg0.N = 40 := N_0
    have := q.isLt
    omega⟩

section
variable (V : (c : Dev nD) → (b : Ref sig .tc) → Buf (Elt Ideal) ((c : Thread nD τ).loc b))

/-! A node window's block at grid point `t`, read at lane `q`, is the array at node `lane t q`; a weight window's block is
    the whole column. -/
theorem read_node0 (c : Dev nD) (t : Fin cfg0.N) (q : Fin 2560) :
    iblk0 V c 0 t (ix2 (0 : Fin 1) q) = V c main_v16 (ix2 (0 : Fin 1) (lane t q)) := by
  obtain ⟨e0, e1⟩ := idx0 t
  show V c main_v16 (((cfg0.win 0).blk t).view.emb (ix2 (0 : Fin 1) q)) = _
  refine congrArg (V c main_v16) (funext fun a => Fin.ext ?_)
  match a with
  | ⟨0, _⟩ => show win0_0.index t (0 : Fin 2) * 1 + 1 * 0 = 0; omega
  | ⟨1, _⟩ => show win0_0.index t (1 : Fin 2) * 2560 + 1 * q.val = t.val * 2560 + q.val; omega
theorem read_node1 (c : Dev nD) (t : Fin cfg0.N) (q : Fin 2560) :
    iblk0 V c 1 t (ix2 (0 : Fin 1) q) = V c main_v18 (ix2 (0 : Fin 1) (lane t q)) := by
  obtain ⟨e0, e1⟩ := idx1 t
  show V c main_v18 (((cfg0.win 1).blk t).view.emb (ix2 (0 : Fin 1) q)) = _
  refine congrArg (V c main_v18) (funext fun a => Fin.ext ?_)
  match a with
  | ⟨0, _⟩ => show win0_1.index t (0 : Fin 2) * 1 + 1 * 0 = 0; omega
  | ⟨1, _⟩ => show win0_1.index t (1 : Fin 2) * 2560 + 1 * q.val = t.val * 2560 + q.val; omega
theorem read_col2 (c : Dev nD) (t : Fin cfg0.N) (j : Fin 128) :
    iblk0 V c 2 t (ix2 j (0 : Fin 1)) = V c main_arg2 (ix2 j (0 : Fin 1)) := by
  obtain ⟨e0, e1⟩ := idx2 t
  show V c main_arg2 (((cfg0.win 2).blk t).view.emb (ix2 j (0 : Fin 1))) = _
  refine congrArg (V c main_arg2) (funext fun a => Fin.ext ?_)
  match a with
  | ⟨0, _⟩ => show win0_2.index t (0 : Fin 2) * 128 + 1 * j.val = j.val; omega
  | ⟨1, _⟩ => show win0_2.index t (1 : Fin 2) * 1 + 1 * 0 = 0; omega
theorem read_col3 (c : Dev nD) (t : Fin cfg0.N) (j : Fin 128) :
    iblk0 V c 3 t (ix2 j (0 : Fin 1)) = V c main_v19 (ix2 j (0 : Fin 1)) := by
  obtain ⟨e0, e1⟩ := idx3 t
  show V c main_v19 (((cfg0.win 3).blk t).view.emb (ix2 j (0 : Fin 1))) = _
  refine congrArg (V c main_v19) (funext fun a => Fin.ext ?_)
  match a with
  | ⟨0, _⟩ => show win0_3.index t (0 : Fin 2) * 128 + 1 * j.val = j.val; omega
  | ⟨1, _⟩ => show win0_3.index t (1 : Fin 2) * 1 + 1 * 0 = 0; omega
theorem read_col4 (c : Dev nD) (t : Fin cfg0.N) (j : Fin 128) :
    iblk0 V c 4 t (ix2 j (0 : Fin 1)) = V c main_arg4 (ix2 j (0 : Fin 1)) := by
  obtain ⟨e0, e1⟩ := idx4 t
  show V c main_arg4 (((cfg0.win 4).blk t).view.emb (ix2 j (0 : Fin 1))) = _
  refine congrArg (V c main_arg4) (funext fun a => Fin.ext ?_)
  match a with
  | ⟨0, _⟩ => show win0_4.index t (0 : Fin 2) * 128 + 1 * j.val = j.val; omega
  | ⟨1, _⟩ => show win0_4.index t (1 : Fin 2) * 1 + 1 * 0 = 0; omega
theorem read_col5 (c : Dev nD) (t : Fin cfg0.N) (j : Fin 128) :
    iblk0 V c 5 t (ix2 j (0 : Fin 1)) = V c main_v20 (ix2 j (0 : Fin 1)) := by
  obtain ⟨e0, e1⟩ := idx5 t
  show V c main_v20 (((cfg0.win 5).blk t).view.emb (ix2 j (0 : Fin 1))) = _
  refine congrArg (V c main_v20) (funext fun a => Fin.ext ?_)
  match a with
  | ⟨0, _⟩ => show win0_5.index t (0 : Fin 2) * 128 + 1 * j.val = j.val; omega
  | ⟨1, _⟩ => show win0_5.index t (1 : Fin 2) * 1 + 1 * 0 = 0; omega
theorem read_col6 (c : Dev nD) (t : Fin cfg0.N) (j : Fin 128) :
    iblk0 V c 6 t (ix2 j (0 : Fin 1)) = V c main_v21 (ix2 j (0 : Fin 1)) := by
  obtain ⟨e0, e1⟩ := idx6 t
  show V c main_v21 (((cfg0.win 6).blk t).view.emb (ix2 j (0 : Fin 1))) = _
  refine congrArg (V c main_v21) (funext fun a => Fin.ext ?_)
  match a with
  | ⟨0, _⟩ => show win0_6.index t (0 : Fin 2) * 128 + 1 * j.val = j.val; omega
  | ⟨1, _⟩ => show win0_6.index t (1 : Fin 2) * 1 + 1 * 0 = 0; omega

/-- The block of output row 0 at grid point `t`, entry `(u, q)`, is node `lane t q` of the padded row. -/
theorem emb_out7 (t : Fin cfg0.N) (u : Fin 1) (q : Fin 2560) :
    ((cfg0.win 7).blk t).view.emb (ix2 u q) = ix2 (0 : Fin 1) (lane t q) := by
  obtain ⟨e0, e1⟩ := idx7 t
  refine funext fun a => Fin.ext ?_
  have hu : u.val = 0 := by omega
  match a with
  | ⟨0, _⟩ => show win0_7.index t (0 : Fin 2) * 1 + 1 * u.val = 0; omega
  | ⟨1, _⟩ => show win0_7.index t (1 : Fin 2) * 2560 + 1 * q.val = t.val * 2560 + q.val; omega

/-- What grid point `t` writes back to this output is its block of the projection row of the arrays as the launch
    finds them. -/
theorem flushed7_eq (c : Dev nD) (t : Fin cfg0.N) :
    (dat0 V c).flushed 7 t = ((cfg0.win 7).blk t).view.read (Elt Ideal)
      (projRow (V c main_v16) (V c main_v18) (V c main_arg2) (V c main_v19) (V c main_arg4) (V c main_v20)) := by
  show (cfg0.win 7).cut (grid0.coords t) ((dat0 V c).after 7 t) = _
  rw [after0_7]
  unfold out0_7
  rw [View.canon_unit_zero hz]
  simp only [View.ld_unit_zero (S := S1x2560) hz, View.ld_unit_zero (S := S128x1) hz]
  refine funext fun (y : S1x2560.Idx) => ?_
  obtain ⟨u, q, rfl⟩ : ∃ (u : Fin 1) (q : Fin 2560), y = ix2 u q := ⟨y 0, y 1, eq_ix2 y⟩
  show k0_pay2 (F := Ideal) (iblk0 V c 0 t) (iblk0 V c 1 t) (iblk0 V c 2 t) (iblk0 V c 3 t) (iblk0 V c 4 t) (iblk0 V c 5 t) (ix2 u q)
      = projRow (V c main_v16) (V c main_v18) (V c main_arg2) (V c main_v19) (V c main_arg4) (V c main_v20)
          (((cfg0.win 7).blk t).view.emb (ix2 u q))
  rw [emb_out7 t u q]
  refine (pay2_apply (iblk0 V c 0 t) (iblk0 V c 1 t) (iblk0 V c 2 t) (iblk0 V c 3 t) (iblk0 V c 4 t) (iblk0 V c 5 t) u q).trans ?_
  unfold projRow
  refine Finset.sum_congr rfl fun j _ => ?_
  rw [read_node0 V c t q, read_node1 V c t q, read_col2 V c t j, read_col3 V c t j, read_col4 V c t j, read_col5 V c t j]

/-- An index of this output's array is in grid point `t`'s block iff each coordinate is in the block's range. -/
theorem mem_blk7 (t : Fin cfg0.N) (i : S1x102400.Idx) :
    i ∈ ((cfg0.win 7).blk t).view.set ↔ ∀ a : Fin 2, win0_7.index t a * S1x2560.size a ≤ (i a).val
      ∧ (i a).val < win0_7.index t a * S1x2560.size a + S1x2560.size a := by
  show i ∈ ((View.whole main_v22_0).slice (win0_7.rect t)).set ↔ _
  rw [View.set_slice_whole, Rect.mem_set_unit]
  exact Iff.rfl

/-- Every node of the padded row is written by the grid point whose number is the node's number over 2560. -/
theorem cover7 (i : S1x102400.Idx) :
    ∃ t : Fin cfg0.N, (cfg0.win 7).flush t = true ∧ i ∈ ((cfg0.win 7).blk t).view.set := by
  have hi0 : (i 0).val < 1 := (i 0).isLt
  have hi1 : (i 1).val < 102400 := (i 1).isLt
  have hN : cfg0.N = 40 := N_0
  have ht : (i 1).val / 2560 < cfg0.N := by rw [hN]; omega
  refine ⟨⟨(i 1).val / 2560, ht⟩, flush0_7 _, ?_⟩
  rw [mem_blk7]
  obtain ⟨e0, e1⟩ := idx7 ⟨(i 1).val / 2560, ht⟩
  intro a
  match a with
  | ⟨0, _⟩ =>
    show win0_7.index ⟨(i 1).val / 2560, ht⟩ (0 : Fin 2) * 1 ≤ (i 0).val
      ∧ (i 0).val < win0_7.index ⟨(i 1).val / 2560, ht⟩ (0 : Fin 2) * 1 + 1
    rw [e0]; omega
  | ⟨1, _⟩ =>
    show win0_7.index ⟨(i 1).val / 2560, ht⟩ (1 : Fin 2) * 2560 ≤ (i 1).val
      ∧ (i 1).val < win0_7.index ⟨(i 1).val / 2560, ht⟩ (1 : Fin 2) * 2560 + 2560
    rw [e1]
    show (i 1).val / 2560 * 2560 ≤ (i 1).val ∧ (i 1).val < (i 1).val / 2560 * 2560 + 2560
    omega

/-- After the launch this output's array IS the projection row of the arrays the launch was entered with. -/
theorem final7 (c : Dev nD) :
    (dat0 V c).arrAt 7 cfg0.N
      = projRow (V c main_v16) (V c main_v18) (V c main_arg2) (V c main_v19) (V c main_arg4) (V c main_v20) :=
  (dat0 V c).arrAt_eq_of_cover 7 _ (fun t _ => flushed7_eq V c t) (cover7)

/-- The block of output row 1 at grid point `t`, entry `(u, q)`, is node `lane t q` of the padded row. -/
theorem emb_out8 (t : Fin cfg0.N) (u : Fin 1) (q : Fin 2560) :
    ((cfg0.win 8).blk t).view.emb (ix2 u q) = ix2 (0 : Fin 1) (lane t q) := by
  obtain ⟨e0, e1⟩ := idx8 t
  refine funext fun a => Fin.ext ?_
  have hu : u.val = 0 := by omega
  match a with
  | ⟨0, _⟩ => show win0_8.index t (0 : Fin 2) * 1 + 1 * u.val = 0; omega
  | ⟨1, _⟩ => show win0_8.index t (1 : Fin 2) * 2560 + 1 * q.val = t.val * 2560 + q.val; omega

/-- What grid point `t` writes back to this output is its block of the projection row of the arrays as the launch
    finds them. -/
theorem flushed8_eq (c : Dev nD) (t : Fin cfg0.N) :
    (dat0 V c).flushed 8 t = ((cfg0.win 8).blk t).view.read (Elt Ideal)
      (projRow (V c main_v16) (V c main_v18) (V c main_arg2) (V c main_v19) (V c main_arg4) (V c main_v21)) := by
  show (cfg0.win 8).cut (grid0.coords t) ((dat0 V c).after 8 t) = _
  rw [after0_8]
  unfold out0_8
  rw [View.canon_unit_zero hz]
  simp only [View.ld_unit_zero (S := S1x2560) hz, View.ld_unit_zero (S := S128x1) hz]
  refine funext fun (y : S1x2560.Idx) => ?_
  obtain ⟨u, q, rfl⟩ : ∃ (u : Fin 1) (q : Fin 2560), y = ix2 u q := ⟨y 0, y 1, eq_ix2 y⟩
  show k0_pay3 (F := Ideal) (iblk0 V c 0 t) (iblk0 V c 1 t) (iblk0 V c 2 t) (iblk0 V c 3 t) (iblk0 V c 4 t) (iblk0 V c 6 t) (ix2 u q)
      = projRow (V c main_v16) (V c main_v18) (V c main_arg2) (V c main_v19) (V c main_arg4) (V c main_v21)
          (((cfg0.win 8).blk t).view.emb (ix2 u q))
  rw [emb_out8 t u q]
  refine (pay3_apply (iblk0 V c 0 t) (iblk0 V c 1 t) (iblk0 V c 2 t) (iblk0 V c 3 t) (iblk0 V c 4 t) (iblk0 V c 6 t) u q).trans ?_
  unfold projRow
  refine Finset.sum_congr rfl fun j _ => ?_
  rw [read_node0 V c t q, read_node1 V c t q, read_col2 V c t j, read_col3 V c t j, read_col4 V c t j, read_col6 V c t j]

/-- An index of this output's array is in grid point `t`'s block iff each coordinate is in the block's range. -/
theorem mem_blk8 (t : Fin cfg0.N) (i : S1x102400.Idx) :
    i ∈ ((cfg0.win 8).blk t).view.set ↔ ∀ a : Fin 2, win0_8.index t a * S1x2560.size a ≤ (i a).val
      ∧ (i a).val < win0_8.index t a * S1x2560.size a + S1x2560.size a := by
  show i ∈ ((View.whole main_v22_1).slice (win0_8.rect t)).set ↔ _
  rw [View.set_slice_whole, Rect.mem_set_unit]
  exact Iff.rfl

/-- Every node of the padded row is written by the grid point whose number is the node's number over 2560. -/
theorem cover8 (i : S1x102400.Idx) :
    ∃ t : Fin cfg0.N, (cfg0.win 8).flush t = true ∧ i ∈ ((cfg0.win 8).blk t).view.set := by
  have hi0 : (i 0).val < 1 := (i 0).isLt
  have hi1 : (i 1).val < 102400 := (i 1).isLt
  have hN : cfg0.N = 40 := N_0
  have ht : (i 1).val / 2560 < cfg0.N := by rw [hN]; omega
  refine ⟨⟨(i 1).val / 2560, ht⟩, flush0_8 _, ?_⟩
  rw [mem_blk8]
  obtain ⟨e0, e1⟩ := idx8 ⟨(i 1).val / 2560, ht⟩
  intro a
  match a with
  | ⟨0, _⟩ =>
    show win0_8.index ⟨(i 1).val / 2560, ht⟩ (0 : Fin 2) * 1 ≤ (i 0).val
      ∧ (i 0).val < win0_8.index ⟨(i 1).val / 2560, ht⟩ (0 : Fin 2) * 1 + 1
    rw [e0]; omega
  | ⟨1, _⟩ =>
    show win0_8.index ⟨(i 1).val / 2560, ht⟩ (1 : Fin 2) * 2560 ≤ (i 1).val
      ∧ (i 1).val < win0_8.index ⟨(i 1).val / 2560, ht⟩ (1 : Fin 2) * 2560 + 2560
    rw [e1]
    show (i 1).val / 2560 * 2560 ≤ (i 1).val ∧ (i 1).val < (i 1).val / 2560 * 2560 + 2560
    omega

/-- After the launch this output's array IS the projection row of the arrays the launch was entered with. -/
theorem final8 (c : Dev nD) :
    (dat0 V c).arrAt 8 cfg0.N
      = projRow (V c main_v16) (V c main_v18) (V c main_arg2) (V c main_v19) (V c main_arg4) (V c main_v21) :=
  (dat0 V c).arrAt_eq_of_cover 8 _ (fun t _ => flushed8_eq V c t) (cover8)

end

end Cert.KernelIdeal.Projections

end
-- ==== Proof.ExitFirst.lean ====
/-
  What the first launch leaves.

  Its two result rows are the projections of every node's hidden column onto the two second-layer weight columns, as
  functions of the arguments; every other buffer is as the launch found it, in particular the edge list's two rows and
  the second bias.
-/
import proofs.«140387_j52286931861627_2_alg».proof.Proof.HostValues
import proofs.«140387_j52286931861627_2_alg».proof.Proof.EntryFirst
import proofs.«140387_j52286931861627_2_alg».proof.Proof.Projections
import Idealize.ShloMosaic.Lib.StableHlo.Run

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

/-- The first result row: every node's hidden column projected onto the first second-layer weight column. -/
theorem exit0_v22_0 : W6 m ρ c (Proc.devRef .tc main_v22_0)
    = Projections.projRow (padRow (aggVec (srcVec (argEI m c)) (dstVec (argEI m c)) (flatX (argX m c))))
        (padRow (flatX (argX m c))) (argW1 m c) (colOfVec (argB1 m c)) (argW1r m c) (colOfRow (argW2 m c)) := by
  refine (W6_arr m ρ c 7).trans ?_
  rw [Projections.final7 (V5 m ρ) c]
  show Projections.projRow (W5 m ρ c (Proc.devRef .tc main_v16)) (W5 m ρ c (Proc.devRef .tc main_v18))
      (W5 m ρ c (Proc.devRef .tc main_arg2)) (W5 m ρ c (Proc.devRef .tc main_v19)) (W5 m ρ c (Proc.devRef .tc main_arg4))
      (W5 m ρ c (Proc.devRef .tc main_v20)) = _
  rw [entry0_v16, entry0_v18, entry0_arg2, entry0_v19, entry0_arg4, entry0_v20]

/-- The second result row: the same, onto the other weight column. -/
theorem exit0_v22_1 : W6 m ρ c (Proc.devRef .tc main_v22_1)
    = Projections.projRow (padRow (aggVec (srcVec (argEI m c)) (dstVec (argEI m c)) (flatX (argX m c))))
        (padRow (flatX (argX m c))) (argW1 m c) (colOfVec (argB1 m c)) (argW1r m c) (colOfRow (argW2r m c)) := by
  refine (W6_arr m ρ c 8).trans ?_
  rw [Projections.final8 (V5 m ρ) c]
  show Projections.projRow (W5 m ρ c (Proc.devRef .tc main_v16)) (W5 m ρ c (Proc.devRef .tc main_v18))
      (W5 m ρ c (Proc.devRef .tc main_arg2)) (W5 m ρ c (Proc.devRef .tc main_v19)) (W5 m ρ c (Proc.devRef .tc main_arg4))
      (W5 m ρ c (Proc.devRef .tc main_v21)) = _
  rw [entry0_v16, entry0_v18, entry0_arg2, entry0_v19, entry0_arg4, entry0_v21]

theorem exit0_v1 : W6 m ρ c (Proc.devRef .tc main_v1) = srcVec (argEI m c) :=
  (W6_of_ne m ρ c main_v1 (by decide)).trans (entry0_v1 m ρ c)

theorem exit0_v3 : W6 m ρ c (Proc.devRef .tc main_v3) = dstVec (argEI m c) :=
  (W6_of_ne m ρ c main_v3 (by decide)).trans (entry0_v3 m ρ c)

theorem exit0_arg6 : W6 m ρ c (Proc.devRef .tc main_arg6) = argB2 m c :=
  (W6_of_ne m ρ c main_arg6 (by decide)).trans (entry0_arg6 m ρ c)

end Cert.KernelIdeal.Stages

end
-- ==== Proof.StretchSecond.lean ====
/-
  The stretch of host operations after the first launch, read back.

  It cuts the first 100000 entries out of each of the launch's result rows, wraps the source words again, looks the
  first projection up along the edges and sums it into the targets: the second aggregate. Its values are the named
  functions of what the launch left.
-/
import proofs.«140387_j52286931861627_2_alg».proof.Proof.HostValues
import proofs.«140387_j52286931861627_2_alg».proof.Proof.ExitFirst
import Idealize.ShloMosaic.Lib.StableHlo.Run

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

set_option maxHeartbeats 1000000 in
/-- Whatever the first launch left, the stretch after it sums the head of the first result row over the edge list, with
    the two rows of the edge list as it finds them. -/
theorem second_aggregate (V6 : Valuation τ sig (Elt Ideal)) :
    StableHlo.after (hostOps1 (F := Ideal)) V6 (Proc.devRef .tc main_v36)
      = aggVec (V6 (Proc.devRef .tc main_v1)) (V6 (Proc.devRef .tc main_v3)) (headVec (V6 (Proc.devRef .tc main_v22_0))) := by
  dsimp only [hostOps1]
  after_results
  rfl

set_option maxHeartbeats 400000 in
theorem second_projection_head (V6 : Valuation τ sig (Elt Ideal)) :
    StableHlo.after (hostOps1 (F := Ideal)) V6 (Proc.devRef .tc main_v26) = headVec (V6 (Proc.devRef .tc main_v22_1)) := by
  dsimp only [hostOps1]
  after_results
  rfl

set_option maxHeartbeats 400000 in
theorem second_pad_word (V6 : Valuation τ sig (Elt Ideal)) :
    StableHlo.after (hostOps1 (F := Ideal)) V6 (Proc.devRef .tc main_c_6) = constantI S_ 32 0#32 := by
  dsimp only [hostOps1]
  after_results

set_option maxHeartbeats 400000 in
theorem second_bias_kept (V6 : Valuation τ sig (Elt Ideal)) :
    StableHlo.after (hostOps1 (F := Ideal)) V6 (Proc.devRef .tc main_arg6) = V6 (Proc.devRef .tc main_arg6) := by
  dsimp only [hostOps1]
  after_results

/-- The second aggregate: the first projection's head summed over the edge list. -/
theorem stretch1_v36 : W7 m ρ c (Proc.devRef .tc main_v36)
    = aggVec (W6 m ρ c (Proc.devRef .tc main_v1)) (W6 m ρ c (Proc.devRef .tc main_v3))
        (headVec (W6 m ρ c (Proc.devRef .tc main_v22_0))) := second_aggregate (W6 m ρ c)

theorem stretch1_v26 : W7 m ρ c (Proc.devRef .tc main_v26) = headVec (W6 m ρ c (Proc.devRef .tc main_v22_1)) :=
  second_projection_head (W6 m ρ c)

theorem stretch1_c6 : W7 m ρ c (Proc.devRef .tc main_c_6) = constantI S_ 32 0#32 := second_pad_word (W6 m ρ c)

theorem stretch1_arg6 : W7 m ρ c (Proc.devRef .tc main_arg6) = W6 m ρ c (Proc.devRef .tc main_arg6) :=
  second_bias_kept (W6 m ρ c)

end Cert.KernelIdeal.Stages

end
-- ==== Proof.EntrySecond.lean ====
/-
  What the second launch is entered with: the second aggregate and the second projection, each padded with 2400 zeros
  and laid out as one row of 102400, and the second bias as a one-by-one matrix.
-/
import proofs.«140387_j52286931861627_2_alg».proof.Proof.HostValues
import proofs.«140387_j52286931861627_2_alg».proof.Proof.StretchSecond
import Idealize.ShloMosaic.Lib.StableHlo.Run

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

/-- Whatever the stretch after the first launch left, if it left `A` as the second aggregate and the zero word as the
    padding value, the next four stretches hand the second launch `A` padded and laid out as a row. -/
theorem padded_second_aggregate (V7 : Valuation τ sig (Elt Ideal)) (A : FVec Ideal S100000 .f32)
    (h36 : V7 (Proc.devRef .tc main_v36) = A) (hc : V7 (Proc.devRef .tc main_c_6) = constantI S_ 32 0#32) :
    StableHlo.after (hostOps1_4 (F := Ideal)) (StableHlo.after hostOps1_3 (StableHlo.after hostOps1_2 (StableHlo.after hostOps1_1 V7)))
      (Proc.devRef .tc main_v38) = padRow A := by
  dsimp only [hostOps1_4, hostOps1_3, hostOps1_2, hostOps1_1]
  after_results
  rw [h36, hc]
  rfl

/-- Likewise for the head of the second projection. -/
theorem padded_second_projection (V7 : Valuation τ sig (Elt Ideal)) (A : FVec Ideal S100000 .f32)
    (h26 : V7 (Proc.devRef .tc main_v26) = A) :
    StableHlo.after (hostOps1_4 (F := Ideal)) (StableHlo.after hostOps1_3 (StableHlo.after hostOps1_2 (StableHlo.after hostOps1_1 V7)))
      (Proc.devRef .tc main_v40) = padRow A := by
  dsimp only [hostOps1_4, hostOps1_3, hostOps1_2, hostOps1_1]
  after_results
  rw [h26]
  rfl

/-- And the second bias as a one-by-one matrix. -/
theorem bias_matrix (V7 : Valuation τ sig (Elt Ideal)) (b : FVec Ideal S1 .f32)
    (h6 : V7 (Proc.devRef .tc main_arg6) = b) :
    StableHlo.after (hostOps1_4 (F := Ideal)) (StableHlo.after hostOps1_3 (StableHlo.after hostOps1_2 (StableHlo.after hostOps1_1 V7)))
      (Proc.devRef .tc main_v41) = matOfScalar b := by
  dsimp only [hostOps1_4, hostOps1_3, hostOps1_2, hostOps1_1]
  after_results
  rw [h6]
  rfl

theorem entry1_v38 : W11 m ρ c (Proc.devRef .tc main_v38) = padRow (W7 m ρ c (Proc.devRef .tc main_v36)) :=
  padded_second_aggregate (W7 m ρ c) _ rfl (stretch1_c6 m ρ c)

theorem entry1_v40 : W11 m ρ c (Proc.devRef .tc main_v40) = padRow (W7 m ρ c (Proc.devRef .tc main_v26)) :=
  padded_second_projection (W7 m ρ c) _ rfl

theorem entry1_v41 : W11 m ρ c (Proc.devRef .tc main_v41) = matOfScalar (W7 m ρ c (Proc.devRef .tc main_arg6)) :=
  bias_matrix (W7 m ρ c) _ rfl

end Cert.KernelIdeal.Stages

end
-- ==== Proof.Combination.lean ====
/-
  The second launch: the combination.

  The launch is entered with two padded rows of 102400 = 40 · 2560 numbers — the nodes' second aggregates `a` and
  their own projections `y` — and the second layer's bias as a one-by-one matrix `b`. For the node on lane `q` the
  body stores `a q + b + y q` in the first result row and that number cut off below at 0 in the second.

  Each of the 40 grid points handles 2560 consecutive nodes; the output blocks tile the two result rows. So after the
  launch each result row is ONE function of the arrays the launch was entered with (`final3`, `final4`), stated at
  arbitrary entry contents `V`.
-/
import proofs.«140387_j52286931861627_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«140387_j52286931861627_2_alg».proof.Proof.LibColumn

set_option maxRecDepth 16384

noncomputable section

open scoped BigOperators

namespace Cert.KernelIdeal.Combination

open Cert.KernelIdeal Cert.KernelIdeal.Gen Idealize.ShloMosaic Idealize.ShloMosaic.TcCoe Idealize.SL.Sem
open Idealize.ShloMosaic.ValueIdx
open Idealize.ShloMosaic.Pipeline (Dat)

/-! ## The body at an index -/

/-- The first stored row at lane `q`: the node's aggregate plus the bias plus the node's own projection. -/
theorem pay1_apply (a y : FVec Ideal S1x2560 .f32) (b : FVec Ideal S1x1 .f32) (u : Fin 1) (q : Fin 2560) :
    k1_pay1 (F := Ideal) a y b (ix2 u q)
      = (a (ix2 (0 : Fin 1) q) + b (ix2 (0 : Fin 1) (0 : Fin 1))) + y (ix2 (0 : Fin 1) q) := by
  have hu : u = (0 : Fin 1) := Subsingleton.elim _ _
  subst hu
  unfold k1_pay1
  simp only [shapeCast_self]
  show (a (ix2 (0 : Fin 1) q) + broadcastTo S1x2560 b broadcasts_S1x1_S1x2560 (ix2 (0 : Fin 1) q)) + y (ix2 (0 : Fin 1) q) = _
  rw [Column.broadcastTo_a1_ab_apply]

/-- The second stored row at lane `q`: the first cut off below at 0. -/
theorem pay2_apply (a y : FVec Ideal S1x2560 .f32) (b : FVec Ideal S1x1 .f32) (u : Fin 1) (q : Fin 2560) :
    k1_pay2 (F := Ideal) a y b (ix2 u q)
      = max ((a (ix2 (0 : Fin 1) q) + b (ix2 (0 : Fin 1) (0 : Fin 1))) + y (ix2 (0 : Fin 1) q)) 0 := by
  unfold k1_pay2
  show max (k1_pay1 (F := Ideal) a y b (ix2 u q)) (Ideal.ofBits .f32 0x00000000#32) = _
  rw [pay1_apply, Ideal.ofBits_zero_f32]

/-! ## From blocks to the arrays -/

/-- The combination as a whole padded row: at node `i`, the aggregate plus the bias plus the node's own projection. -/
def combRow (a y : S1x102400.Idx → EReal) (b : S1x1.Idx → EReal) : S1x102400.Idx → EReal :=
  fun i => (a i + b (ix2 (0 : Fin 1) (0 : Fin 1))) + y i

/-- The combination cut off below at 0, as a whole padded row. -/
def reluRow (a y : S1x102400.Idx → EReal) (b : S1x1.Idx → EReal) : S1x102400.Idx → EReal :=
  fun i => max (combRow a y b i) 0

theorem hz : (![0, 0] : Fin 2 → Nat) = fun _ => 0 := funext fun a => by fin_cases a <;> rfl

/-! The printed index maps, decided over the 40 grid points: a node window sits at block `(0, t)`, the bias window at
    block `(0, 0)`. -/
theorem idx0 : ∀ t : Fin cfg1.N, win1_0.index t (0 : Fin 2) = 0 ∧ win1_0.index t (1 : Fin 2) = t.val :=
  (by decide +kernel : ∀ t : Fin grid1.N, win1_0.index t (0 : Fin 2) = 0 ∧ win1_0.index t (1 : Fin 2) = t.val)
theorem idx1 : ∀ t : Fin cfg1.N, win1_1.index t (0 : Fin 2) = 0 ∧ win1_1.index t (1 : Fin 2) = t.val :=
  (by decide +kernel : ∀ t : Fin grid1.N, win1_1.index t (0 : Fin 2) = 0 ∧ win1_1.index t (1 : Fin 2) = t.val)
theorem idx3 : ∀ t : Fin cfg1.N, win1_3.index t (0 : Fin 2) = 0 ∧ win1_3.index t (1 : Fin 2) = t.val :=
  (by decide +kernel : ∀ t : Fin grid1.N, win1_3.index t (0 : Fin 2) = 0 ∧ win1_3.index t (1 : Fin 2) = t.val)
theorem idx4 : ∀ t : Fin cfg1.N, win1_4.index t (0 : Fin 2) = 0 ∧ win1_4.index t (1 : Fin 2) = t.val :=
  (by decide +kernel : ∀ t : Fin grid1.N, win1_4.index t (0 : Fin 2) = 0 ∧ win1_4.index t (1 : Fin 2) = t.val)
theorem idx2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- Lane `q` of grid point `t` is node `t · 2560 + q` of the padded row. -/
def lane (t : Fin cfg1.N) (q : Fin 2560) : Fin 102400 :=
  ⟨t.val * 2560 + q.val, by
    have ht : t.val < cfg1.N := t.isLt
    have hN : cfg1.N = 40 := N_1
    have := q.isLt
    omega⟩

section
variable (V : (c : Dev nD) → (b : Ref sig .tc) → Buf (Elt Ideal) ((c : Thread nD τ).loc b))

/-! A node window's block at grid point `t`, read at lane `q`, is the array at node `lane t q`; the bias window's block
    is the whole one-by-one matrix. -/
theorem read_node0 (c : Dev nD) (t : Fin cfg1.N) (q : Fin 2560) :
    iblk1 V c 0 t (ix2 (0 : Fin 1) q) = V c main_v38 (ix2 (0 : Fin 1) (lane t q)) := by
  obtain ⟨e0, e1⟩ := idx0 t
  show V c main_v38 (((cfg1.win 0).blk t).view.emb (ix2 (0 : Fin 1) q)) = _
  refine congrArg (V c main_v38) (funext fun a => Fin.ext ?_)
  match a with
  | ⟨0, _⟩ => show win1_0.index t (0 : Fin 2) * 1 + 1 * 0 = 0; omega
  | ⟨1, _⟩ => show win1_0.index t (1 : Fin 2) * 2560 + 1 * q.val = t.val * 2560 + q.val; omega
theorem read_node1 (c : Dev nD) (t : Fin cfg1.N) (q : Fin 2560) :
    iblk1 V c 1 t (ix2 (0 : Fin 1) q) = V c main_v40 (ix2 (0 : Fin 1) (lane t q)) := by
  obtain ⟨e0, e1⟩ := idx1 t
  show V c main_v40 (((cfg1.win 1).blk t).view.emb (ix2 (0 : Fin 1) q)) = _
  refine congrArg (V c main_v40) (funext fun a => Fin.ext ?_)
  match a with
  | ⟨0, _⟩ => show win1_1.index t (0 : Fin 2) * 1 + 1 * 0 = 0; omega
  | ⟨1, _⟩ => show win1_1.index t (1 : Fin 2) * 2560 + 1 * q.val = t.val * 2560 + q.val; omega
theorem read_bias (c : Dev nD) (t : Fin cfg1.N) :
    iblk1 V c 2 t (ix2 (0 : Fin 1) (0 : Fin 1)) = V c main_v41 (ix2 (0 : Fin 1) (0 : Fin 1)) := by
  obtain ⟨e0, e1⟩ := idx2 t
  show V c main_v41 (((cfg1.win 2).blk t).view.emb (ix2 (0 : Fin 1) (0 : Fin 1))) = _
  refine congrArg (V c main_v41) (funext fun a => Fin.ext ?_)
  match a with
  | ⟨0, _⟩ => show win1_2.index t (0 : Fin 2) * 1 + 1 * 0 = 0; omega
  | ⟨1, _⟩ => show win1_2.index t (1 : Fin 2) * 1 + 1 * 0 = 0; omega

/-- The block of this result row at grid point `t`, entry `(u, q)`, is node `lane t q` of the padded row. -/
theorem emb_out3 (t : Fin cfg1.N) (u : Fin 1) (q : Fin 2560) :
    ((cfg1.win 3).blk t).view.emb (ix2 u q) = ix2 (0 : Fin 1) (lane t q) := by
  obtain ⟨e0, e1⟩ := idx3 t
  refine funext fun a => Fin.ext ?_
  have hu : u.val = 0 := by omega
  match a with
  | ⟨0, _⟩ => show win1_3.index t (0 : Fin 2) * 1 + 1 * u.val = 0; omega
  | ⟨1, _⟩ => show win1_3.index t (1 : Fin 2) * 2560 + 1 * q.val = t.val * 2560 + q.val; omega

/-- What grid point `t` writes back to this result row is its block of the row's function of the arrays as the launch
    finds them. -/
theorem flushed3_eq (c : Dev nD) (t : Fin cfg1.N) :
    (dat1 V c).flushed 3 t = ((cfg1.win 3).blk t).view.read (Elt Ideal)
      (combRow (V c main_v38) (V c main_v40) (V c main_v41)) := by
  show (cfg1.win 3).cut (grid1.coords t) ((dat1 V c).after 3 t) = _
  rw [after1_3]
  unfold out1_3
  rw [View.canon_unit_zero hz]
  simp only [View.ld_unit_zero (S := S1x2560) hz, View.ld_unit_zero (S := S1x1) hz]
  refine funext fun (y : S1x2560.Idx) => ?_
  obtain ⟨u, q, rfl⟩ : ∃ (u : Fin 1) (q : Fin 2560), y = ix2 u q := ⟨y 0, y 1, eq_ix2 y⟩
  show k1_pay1 (F := Ideal) (iblk1 V c 0 t) (iblk1 V c 1 t) (iblk1 V c 2 t) (ix2 u q)
      = combRow (V c main_v38) (V c main_v40) (V c main_v41) (((cfg1.win 3).blk t).view.emb (ix2 u q))
  rw [emb_out3 t u q]
  refine (pay1_apply (iblk1 V c 0 t) (iblk1 V c 1 t) (iblk1 V c 2 t) u q).trans ?_
  unfold combRow
  rw [read_node0 V c t q, read_node1 V c t q, read_bias V c t]

/-- An index of this result row is in grid point `t`'s block iff each coordinate is in the block's range. -/
theorem mem_blk3 (t : Fin cfg1.N) (i : S1x102400.Idx) :
    i ∈ ((cfg1.win 3).blk t).view.set ↔ ∀ a : Fin 2, win1_3.index t a * S1x2560.size a ≤ (i a).val
      ∧ (i a).val < win1_3.index t a * S1x2560.size a + S1x2560.size a := by
  show i ∈ ((View.whole main_v42_0).slice (win1_3.rect t)).set ↔ _
  rw [View.set_slice_whole, Rect.mem_set_unit]
  exact Iff.rfl

/-- Every node of the padded row is written by the grid point whose number is the node's number over 2560. -/
theorem cover3 (i : S1x102400.Idx) :
    ∃ t : Fin cfg1.N, (cfg1.win 3).flush t = true ∧ i ∈ ((cfg1.win 3).blk t).view.set := by
  have hi0 : (i 0).val < 1 := (i 0).isLt
  have hi1 : (i 1).val < 102400 := (i 1).isLt
  have hN : cfg1.N = 40 := N_1
  have ht : (i 1).val / 2560 < cfg1.N := by rw [hN]; omega
  refine ⟨⟨(i 1).val / 2560, ht⟩, flush1_3 _, ?_⟩
  rw [mem_blk3]
  obtain ⟨e0, e1⟩ := idx3 ⟨(i 1).val / 2560, ht⟩
  intro a
  match a with
  | ⟨0, _⟩ =>
    show win1_3.index ⟨(i 1).val / 2560, ht⟩ (0 : Fin 2) * 1 ≤ (i 0).val
      ∧ (i 0).val < win1_3.index ⟨(i 1).val / 2560, ht⟩ (0 : Fin 2) * 1 + 1
    rw [e0]; omega
  | ⟨1, _⟩ =>
    show win1_3.index ⟨(i 1).val / 2560, ht⟩ (1 : Fin 2) * 2560 ≤ (i 1).val
      ∧ (i 1).val < win1_3.index ⟨(i 1).val / 2560, ht⟩ (1 : Fin 2) * 2560 + 2560
    rw [e1]
    show (i 1).val / 2560 * 2560 ≤ (i 1).val ∧ (i 1).val < (i 1).val / 2560 * 2560 + 2560
    omega

/-- After the launch this result row IS its function of the arrays the launch was entered with. -/
theorem final3 (c : Dev nD) :
    (dat1 V c).arrAt 3 cfg1.N = combRow (V c main_v38) (V c main_v40) (V c main_v41) :=
  (dat1 V c).arrAt_eq_of_cover 3 _ (fun t _ => flushed3_eq V c t) (cover3)

/-- The block of this result row at grid point `t`, entry `(u, q)`, is node `lane t q` of the padded row. -/
theorem emb_out4 (t : Fin cfg1.N) (u : Fin 1) (q : Fin 2560) :
    ((cfg1.win 4).blk t).view.emb (ix2 u q) = ix2 (0 : Fin 1) (lane t q) := by
  obtain ⟨e0, e1⟩ := idx4 t
  refine funext fun a => Fin.ext ?_
  have hu : u.val = 0 := by omega
  match a with
  | ⟨0, _⟩ => show win1_4.index t (0 : Fin 2) * 1 + 1 * u.val = 0; omega
  | ⟨1, _⟩ => show win1_4.index t (1 : Fin 2) * 2560 + 1 * q.val = t.val * 2560 + q.val; omega

/-- What grid point `t` writes back to this result row is its block of the row's function of the arrays as the launch
    finds them. -/
theorem flushed4_eq (c : Dev nD) (t : Fin cfg1.N) :
    (dat1 V c).flushed 4 t = ((cfg1.win 4).blk t).view.read (Elt Ideal)
      (reluRow (V c main_v38) (V c main_v40) (V c main_v41)) := by
  show (cfg1.win 4).cut (grid1.coords t) ((dat1 V c).after 4 t) = _
  rw [after1_4]
  unfold out1_4
  rw [View.canon_unit_zero hz]
  simp only [View.ld_unit_zero (S := S1x2560) hz, View.ld_unit_zero (S := S1x1) hz]
  refine funext fun (y : S1x2560.Idx) => ?_
  obtain ⟨u, q, rfl⟩ : ∃ (u : Fin 1) (q : Fin 2560), y = ix2 u q := ⟨y 0, y 1, eq_ix2 y⟩
  show k1_pay2 (F := Ideal) (iblk1 V c 0 t) (iblk1 V c 1 t) (iblk1 V c 2 t) (ix2 u q)
      = reluRow (V c main_v38) (V c main_v40) (V c main_v41) (((cfg1.win 4).blk t).view.emb (ix2 u q))
  rw [emb_out4 t u q]
  refine (pay2_apply (iblk1 V c 0 t) (iblk1 V c 1 t) (iblk1 V c 2 t) u q).trans ?_
  unfold reluRow combRow
  rw [read_node0 V c t q, read_node1 V c t q, read_bias V c t]

/-- An index of this result row is in grid point `t`'s block iff each coordinate is in the block's range. -/
theorem mem_blk4 (t : Fin cfg1.N) (i : S1x102400.Idx) :
    i ∈ ((cfg1.win 4).blk t).view.set ↔ ∀ a : Fin 2, win1_4.index t a * S1x2560.size a ≤ (i a).val
      ∧ (i a).val < win1_4.index t a * S1x2560.size a + S1x2560.size a := by
  show i ∈ ((View.whole main_v42_1).slice (win1_4.rect t)).set ↔ _
  rw [View.set_slice_whole, Rect.mem_set_unit]
  exact Iff.rfl

/-- Every node of the padded row is written by the grid point whose number is the node's number over 2560. -/
theorem cover4 (i : S1x102400.Idx) :
    ∃ t : Fin cfg1.N, (cfg1.win 4).flush t = true ∧ i ∈ ((cfg1.win 4).blk t).view.set := by
  have hi0 : (i 0).val < 1 := (i 0).isLt
  have hi1 : (i 1).val < 102400 := (i 1).isLt
  have hN : cfg1.N = 40 := N_1
  have ht : (i 1).val / 2560 < cfg1.N := by rw [hN]; omega
  refine ⟨⟨(i 1).val / 2560, ht⟩, flush1_4 _, ?_⟩
  rw [mem_blk4]
  obtain ⟨e0, e1⟩ := idx4 ⟨(i 1).val / 2560, ht⟩
  intro a
  match a with
  | ⟨0, _⟩ =>
    show win1_4.index ⟨(i 1).val / 2560, ht⟩ (0 : Fin 2) * 1 ≤ (i 0).val
      ∧ (i 0).val < win1_4.index ⟨(i 1).val / 2560, ht⟩ (0 : Fin 2) * 1 + 1
    rw [e0]; omega
  | ⟨1, _⟩ =>
    show win1_4.index ⟨(i 1).val / 2560, ht⟩ (1 : Fin 2) * 2560 ≤ (i 1).val
      ∧ (i 1).val < win1_4.index ⟨(i 1).val / 2560, ht⟩ (1 : Fin 2) * 2560 + 2560
    rw [e1]
    show (i 1).val / 2560 * 2560 ≤ (i 1).val ∧ (i 1).val < (i 1).val / 2560 * 2560 + 2560
    omega

/-- After the launch this result row IS its function of the arrays the launch was entered with. -/
theorem final4 (c : Dev nD) :
    (dat1 V c).arrAt 4 cfg1.N = reluRow (V c main_v38) (V c main_v40) (V c main_v41) :=
  (dat1 V c).arrAt_eq_of_cover 4 _ (fun t _ => flushed4_eq V c t) (cover4)

end

end Cert.KernelIdeal.Combination

end
-- ==== Proof.Spec.lean ====
/-
  Two graph-convolution layers with sum aggregation, over the extended reals.

  A graph has nodes `ν` and edges `ε`; `into n` is the set of edges that end at node `n` and `src e` the node an
  edge starts at. Every node carries one number `x n`. The first layer has `κ` hidden units:

      agg n     = ∑ over the edges e into n of x (src e)
      hid n j   = max (agg n · w1 j + b1 j + x n · w1r j) 0

  and the second layer has one output per node:

      out n     = (∑ over the edges e into n of (∑ j, hid (src e) j · w2 j)) + b2 + ∑ j, hid n j · w2r j.

  In `out` each source node's hidden row is first projected onto `w2` and the projections are then summed over the
  edges. Summing the hidden rows over the edges first and projecting afterwards gives the same number
  (`out_eq_aggregate_first`): a hidden value is a maximum with 0, hence non-negative, and on the extended reals a sum of
  non-negative terms times any factor is the sum of the products — no finiteness is needed, only the sign.
-/
import Idealize.ShloMosaic.PureOps.Ideal

noncomputable section

open scoped BigOperators

namespace Cert.GraphConv

variable {ν ε κ : Type}

/-- On the extended reals, a sum of NON-NEGATIVE terms times a factor is the sum of the products (multiplication
    distributes over a sum of two non-negative terms whatever the factor, infinite ones included). -/
theorem sum_mul_of_nonneg (s : Finset ε) (a : ε → EReal) (ha : ∀ e ∈ s, 0 ≤ a e) (c : EReal) :
    (∑ e ∈ s, a e) * c = ∑ e ∈ s, a e * c := by
  classical
  revert ha
  refine Finset.induction_on s ?_ ?_
  · intro _; simp
  · intro e s he ih ha
    rw [Finset.sum_insert he, Finset.sum_insert he,
      EReal.right_distrib_of_nonneg (ha e (Finset.mem_insert_self e s))
        (Finset.sum_nonneg fun i hi => ha i (Finset.mem_insert_of_mem hi)),
      ih fun i hi => ha i (Finset.mem_insert_of_mem hi)]

section
variable [Fintype κ]
variable (x : ν → EReal) (into : ν → Finset ε) (src : ε → ν) (w1 b1 w1r w2 w2r : κ → EReal) (b2 : EReal)

/-- The first aggregation: the sum of the features of the source nodes of the edges into `n`. -/
def agg (n : ν) : EReal := ∑ e ∈ into n, x (src e)

/-- Hidden unit `j` of node `n`: the affine combination of its aggregate and its own feature, cut off below at 0. -/
def hid (n : ν) (j : κ) : EReal := max ((agg x into src n * w1 j + b1 j) + x n * w1r j) 0

theorem hid_nonneg (n : ν) (j : κ) : 0 ≤ hid x into src w1 b1 w1r n j := le_max_right _ _

/-- The second layer's output at node `n`, each source's hidden row projected before the sum over the edges. -/
def out (n : ν) : EReal :=
  ((∑ e ∈ into n, ∑ j, hid x into src w1 b1 w1r (src e) j * w2 j) + b2) + ∑ j, hid x into src w1 b1 w1r n j * w2r j

/-- Its cut-off at 0. -/
def outRelu (n : ν) : EReal := max (out x into src w1 b1 w1r w2 w2r b2 n) 0

/-- Summing the hidden rows over the edges first and projecting afterwards is the same number. -/
theorem out_eq_aggregate_first (n : ν) :
    ((∑ j, (∑ e ∈ into n, hid x into src w1 b1 w1r (src e) j) * w2 j) + b2) + ∑ j, hid x into src w1 b1 w1r n j * w2r j
      = out x into src w1 b1 w1r w2 w2r b2 n := by
  have key : ∑ j, (∑ e ∈ into n, hid x into src w1 b1 w1r (src e) j) * w2 j
      = ∑ e ∈ into n, ∑ j, hid x into src w1 b1 w1r (src e) j * w2 j := by
    rw [Finset.sum_comm]
    refine Finset.sum_congr rfl fun j _ => ?_
    exact sum_mul_of_nonneg _ _ (fun e _ => hid_nonneg x into src w1 b1 w1r (src e) j) _
  unfold out
  rw [key]

end

end Cert.GraphConv

end
-- ==== Proof.Results.lean ====
/-
  The idealized kernel's two results at a node.

  The second launch leaves its two result rows at the combination — second aggregate plus bias plus own projection —
  and at that number cut off at 0; the last stretch cuts the first 100000 entries out of each row and stands them as
  columns: the two results. Read at node `n` through all the stages:

  * the first aggregate at a node `s` is the sum over the edges into `s` of the feature of the edge's source;
  * a projection row at node `s` is the sum over the hidden units `j` of the hidden value of `s` at `j` times the
    weight of `j`;
  * the second aggregate at `n` is the sum over the edges into `n` of the first projection at the edge's source;

  so the first result at `n` is (∑ over the edges e into n of ∑ j, hid (src e) j · w2 j) + b2 + ∑ j, hid n j · w2r j, the
  specification's `out` — each source's hidden row projected before the sum over the edges — and the second result is
  that cut off at 0.
-/
import proofs.«140387_j52286931861627_2_alg».proof.Proof.HostValues
import proofs.«140387_j52286931861627_2_alg».proof.Proof.EntrySecond
import proofs.«140387_j52286931861627_2_alg».proof.Proof.Combination
import proofs.«140387_j52286931861627_2_alg».proof.Proof.Spec
import Idealize.ShloMosaic.Lib.StableHlo.Run

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

open Cert.GraphConv

/-! ## After the second launch -/

theorem exit1_v42_0 : W12 m ρ c (Proc.devRef .tc main_v42_0)
    = Combination.combRow (W11 m ρ c (Proc.devRef .tc main_v38)) (W11 m ρ c (Proc.devRef .tc main_v40))
        (W11 m ρ c (Proc.devRef .tc main_v41)) :=
  (W12_arr m ρ c 3).trans (Combination.final3 (V11 m ρ) c)

theorem exit1_v42_1 : W12 m ρ c (Proc.devRef .tc main_v42_1)
    = Combination.reluRow (W11 m ρ c (Proc.devRef .tc main_v38)) (W11 m ρ c (Proc.devRef .tc main_v40))
        (W11 m ρ c (Proc.devRef .tc main_v41)) :=
  (W12_arr m ρ c 4).trans (Combination.final4 (V11 m ρ) c)

/-! ## The last stretch -/

/-- Whatever the second launch left, the last stretch cuts the head out of its first result row and stands it as a
    column. -/
theorem first_result_of (V12 : Valuation τ sig (Elt Ideal)) :
    StableHlo.after (hostOps2 (F := Ideal)) V12 (Proc.devRef .tc main_v45) = asCol (headVec (V12 (Proc.devRef .tc main_v42_0))) := by
  dsimp only [hostOps2]
  after_results
  rfl

/-- And likewise its second result row. -/
theorem second_result_of (V12 : Valuation τ sig (Elt Ideal)) :
    StableHlo.after (hostOps2 (F := Ideal)) V12 (Proc.devRef .tc main_v48) = asCol (headVec (V12 (Proc.devRef .tc main_v42_1))) := by
  dsimp only [hostOps2]
  after_results
  rfl

theorem result_v45 : W13 m ρ c (Proc.devRef .tc main_v45) = asCol (headVec (W12 m ρ c (Proc.devRef .tc main_v42_0))) :=
  first_result_of (W12 m ρ c)

theorem result_v48 : W13 m ρ c (Proc.devRef .tc main_v48) = asCol (headVec (W12 m ρ c (Proc.devRef .tc main_v42_1))) :=
  second_result_of (W12 m ρ c)

/-! ## The graph and the weights the arguments describe -/

abbrev xOf : Fin 100000 → EReal := fun n => argX m c (ix2 n (0 : Fin 1))
abbrev intoOf : Fin 100000 → Finset (Fin 1600000) := inEdges (dstCol (dstVec (argEI m c)))
abbrev srcOf : Fin 1600000 → Fin 100000 := srcNode (srcCol (srcVec (argEI m c)))
abbrev w1Of : Fin 128 → EReal := fun j => argW1 m c (ix2 j (0 : Fin 1))
abbrev b1Of : Fin 128 → EReal := fun j => argB1 m c (ix1 j)
abbrev w1rOf : Fin 128 → EReal := fun j => argW1r m c (ix2 j (0 : Fin 1))
abbrev w2Of : Fin 128 → EReal := fun j => argW2 m c (ix2 (0 : Fin 1) j)
abbrev w2rOf : Fin 128 → EReal := fun j => argW2r m c (ix2 (0 : Fin 1) j)
abbrev b2Of : EReal := argB2 m c (ix1 (0 : Fin 1))

/-! ## The stages at a node -/

/-- The first aggregate at node `s`. -/
theorem agg1_node (s : Fin 100000) :
    aggVec (srcVec (argEI m c)) (dstVec (argEI m c)) (flatX (argX m c)) (ix1 s)
      = agg (xOf m c) (intoOf m c) (srcOf m c) s := by
  rw [aggVec_apply]
  unfold agg
  exact Finset.sum_congr rfl fun e _ => flatX_apply _ _

/-- A projection row at node `s`: the node's hidden row projected onto the weight row `W`. -/
theorem projRow_node (W : FVec Ideal S1x128 .f32) (s : Fin 100000) :
    Projections.projRow (padRow (aggVec (srcVec (argEI m c)) (dstVec (argEI m c)) (flatX (argX m c))))
        (padRow (flatX (argX m c))) (argW1 m c) (colOfVec (argB1 m c)) (argW1r m c) (colOfRow W) (ix2 (0 : Fin 1) (up s))
      = ∑ j : Fin 128, hid (xOf m c) (intoOf m c) (srcOf m c) (w1Of m c) (b1Of m c) (w1rOf m c) s j * W (ix2 (0 : Fin 1) j) := by
  unfold Projections.projRow
  refine Finset.sum_congr rfl fun j _ => ?_
  rw [padRow_apply, padRow_apply, agg1_node, flatX_apply, colOfVec_apply, colOfRow_apply]
  rfl

/-- The second aggregate's padded row at node `n`. -/
theorem v38_node (n : Fin 100000) :
    padRow (W7 m ρ c (Proc.devRef .tc main_v36)) (ix2 (0 : Fin 1) (up n))
      = ∑ e ∈ intoOf m c n, ∑ j : Fin 128,
          hid (xOf m c) (intoOf m c) (srcOf m c) (w1Of m c) (b1Of m c) (w1rOf m c) (srcOf m c e) j * w2Of m c j := by
  rw [padRow_apply, stretch1_v36, exit0_v1, exit0_v3, aggVec_apply]
  refine Finset.sum_congr rfl fun e _ => ?_
  rw [headVec_apply, exit0_v22_0]
  exact projRow_node m c (argW2 m c) _

/-- The own projection's padded row at node `n`. -/
theorem v40_node (n : Fin 100000) :
    padRow (W7 m ρ c (Proc.devRef .tc main_v26)) (ix2 (0 : Fin 1) (up n))
      = ∑ j : Fin 128, hid (xOf m c) (intoOf m c) (srcOf m c) (w1Of m c) (b1Of m c) (w1rOf m c) n j * w2rOf m c j := by
  rw [padRow_apply, stretch1_v26, headVec_apply, exit0_v22_1]
  exact projRow_node m c (argW2r m c) n

/-- The second bias as the launch finds it. -/
theorem v41_node : matOfScalar (W7 m ρ c (Proc.devRef .tc main_arg6)) (ix2 (0 : Fin 1) (0 : Fin 1)) = b2Of m c := by
  rw [matOfScalar_apply, stretch1_arg6, exit0_arg6]

/-! ## The two results at a node -/

/-- The first result at node `n` is the second layer's output. -/
theorem emb_node (n : Fin 100000) :
    W13 m ρ c (Proc.devRef .tc main_v45) (ix2 n (0 : Fin 1))
      = out (xOf m c) (intoOf m c) (srcOf m c) (w1Of m c) (b1Of m c) (w1rOf m c) (w2Of m c) (w2rOf m c) (b2Of m c) n := by
  rw [result_v45, asCol_apply, headVec_apply, exit1_v42_0, entry1_v38, entry1_v40, entry1_v41]
  show (padRow (W7 m ρ c (Proc.devRef .tc main_v36)) (ix2 (0 : Fin 1) (up n))
        + matOfScalar (W7 m ρ c (Proc.devRef .tc main_arg6)) (ix2 (0 : Fin 1) (0 : Fin 1)))
      + padRow (W7 m ρ c (Proc.devRef .tc main_v26)) (ix2 (0 : Fin 1) (up n)) = _
  rw [v38_node, v41_node, v40_node]
  rfl

/-- The second result at node `n` is that output cut off at 0. -/
theorem upd_node (n : Fin 100000) :
    W13 m ρ c (Proc.devRef .tc main_v48) (ix2 n (0 : Fin 1))
      = outRelu (xOf m c) (intoOf m c) (srcOf m c) (w1Of m c) (b1Of m c) (w1rOf m c) (w2Of m c) (w2rOf m c) (b2Of m c) n := by
  rw [result_v48, asCol_apply, headVec_apply, exit1_v42_1, entry1_v38, entry1_v40, entry1_v41]
  show max ((padRow (W7 m ρ c (Proc.devRef .tc main_v36)) (ix2 (0 : Fin 1) (up n))
        + matOfScalar (W7 m ρ c (Proc.devRef .tc main_arg6)) (ix2 (0 : Fin 1) (0 : Fin 1)))
      + padRow (W7 m ρ c (Proc.devRef .tc main_v26)) (ix2 (0 : Fin 1) (up n))) 0 = _
  rw [v38_node, v41_node, v40_node]
  rfl

end Cert.KernelIdeal.Stages

end
-- ==== Proof.RefValue.lean ====
/-
  The reference program read at a node: its first result is the second layer's output, its second that output cut
  off at 0.

  Reading every array of the reference at an index, node by node:

  * the first aggregate. The features of the edges' source nodes are looked up along the edge list (a source word is
    clamped into the node range, so every edge has a source), and the looked-up numbers are added, edge by edge, into
    a column of zeros at the row each edge's target word names. Entry n of the result is the sum, over the edges into
    n, of the feature of the edge's source: agg n.
  * the hidden rows. Entry (n, j) is agg n · w1 j + b1 j + x n · w1r j, cut off at 0; the two products are
    contractions over an axis of length one, that is, single products. This is hid n j.
  * the second aggregate. The hidden rows of the edges' source nodes are looked up, and added into a table of zeros
    at the rows the target words name: entry (n, j) is the sum over the edges into n of hid (src e) j.
  * the output. The aggregated hidden row is projected onto w2 (a sum over the 128 hidden units), b2 is added, and
    the node's own hidden row projected onto w2r is added.

  So the reference sums the hidden rows over the edges first and projects afterwards, while the specification's out
  projects each source's row first; out_eq_aggregate_first says the two are the same number. The program computes
  the wrapped source words and the column of target words twice, once per layer; the two copies are the same terms.
-/
import proofs.«140387_j52286931861627_2_alg».proof.Proof.Gen.ReferenceIdeal.Read
import proofs.«140387_j52286931861627_2_alg».proof.Proof.Spec
import proofs.«140387_j52286931861627_2_alg».proof.Proof.Edges
import proofs.«140387_j52286931861627_2_alg».proof.Proof.LibGatherRows
import proofs.«140387_j52286931861627_2_alg».proof.Proof.LibScatterAddRows
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx
  Idealize.ShloMosaic.GatherRows Idealize.ShloMosaic.ScatterAddRows

variable (x0 : (⟨S100000x1, .f32⟩ : BufTy).Contents (Elt Ideal)) (x1 : (⟨S2x1600000, .i32⟩ : BufTy).Contents (Elt Ideal))
  (x2 : (⟨S128x1, .f32⟩ : BufTy).Contents (Elt Ideal)) (x3 : (⟨S128, .f32⟩ : BufTy).Contents (Elt Ideal))
  (x4 : (⟨S128x1, .f32⟩ : BufTy).Contents (Elt Ideal)) (x5 : (⟨S1x128, .f32⟩ : BufTy).Contents (Elt Ideal))
  (x6 : (⟨S1, .f32⟩ : BufTy).Contents (Elt Ideal)) (x7 : (⟨S1x128, .f32⟩ : BufTy).Contents (Elt Ideal))

/-! ## The edge list is read once

The second layer recomputes the wrapped source words and the column of target words; they are the first layer's. -/

theorem v28_eq : Read.val_main_v28 (F := Ideal) x1 = Read.val_main_v9 (F := Ideal) x1 := rfl

theorem v31_eq : Read.val_main_v31 (F := Ideal) x1 = Read.val_main_v12 (F := Ideal) x1 := rfl

/-! ## The first layer -/

/-- The lookup of the features along the edge list: edge e reads the feature of its source node. -/
theorem v10_apply (e : Fin 1600000) :
    Read.val_main_v10 (F := Ideal) x0 x1 (ix2 e (0 : Fin 1))
      = x0 (ix2 (Cert.GraphConv.srcNode (Read.val_main_v9 (F := Ideal) x1) e) (0 : Fin 1)) :=
  gather_rows_apply (N := 100000) (C := 1) (B := 1600000) (by decide)
    Gen.gather_S100000x1_S1600000x1_S1600000x1_1_0_n_n_0_1_11_wf x0 (Read.val_main_v9 (F := Ideal) x1) e (0 : Fin 1)

/-- The column the first aggregate is added into is zero. -/
theorem v11_apply (i : S100000x1.Idx) : Read.val_main_v11 (F := Ideal) i = 0 := by
  rw [Read.val_main_v11_apply, Read.val_main_cst_apply, Ideal.ofBits_def, Ideal.ofBits_zero_f32]

/-- The first aggregate at node n: the sum over the edges into n of the feature of the edge's source. -/
theorem v13_apply (n : Fin 100000) :
    Read.val_main_v13 (F := Ideal) x0 x1 (ix2 n (0 : Fin 1))
      = Cert.GraphConv.agg (fun n : Fin 100000 => x0 (ix2 n (0 : Fin 1)))
          (Cert.GraphConv.inEdges (Read.val_main_v12 (F := Ideal) x1)) (Cert.GraphConv.srcNode (Read.val_main_v9 (F := Ideal) x1)) n := by
  refine (scatterAdd_rows_apply (N := 100000) (C := 1) (B := 1600000) (φ := .f32)
    Gen.scatter_S100000x1_S1600000x1_S1600000x1_1_0_0_1_wf (Read.val_main_v11 (F := Ideal))
    (Read.val_main_v12 (F := Ideal) x1) (Read.val_main_v10 (F := Ideal) x0 x1) n (0 : Fin 1)).trans ?_
  rw [v11_apply, zero_add]
  exact Finset.sum_congr rfl fun e _ => v10_apply x0 x1 e

/-- The table the first cut-off compares with is zero. -/
theorem relu0_apply (i : S100000x128.Idx) : Read.val_main_call0_v0 (F := Ideal) i = 0 := by
  rw [Read.val_main_call0_v0_apply, Read.val_main_call0_cst_apply, Ideal.ofBits_def, Ideal.ofBits_zero_f32]

/-- The hidden row: entry (n, j) is agg n · w1 j + b1 j + x n · w1r j cut off at 0. Each of the two contractions runs
    over an axis of length one, so it is one product; the transposed weights and the broadcast bias are read back at
    the hidden unit j. -/
theorem v22_apply (n : Fin 100000) (j : Fin 128) :
    Read.val_main_v22 (F := Ideal) x0 x1 x2 x3 x4 (ix2 n j)
      = Cert.GraphConv.hid (fun n : Fin 100000 => x0 (ix2 n (0 : Fin 1)))
          (Cert.GraphConv.inEdges (Read.val_main_v12 (F := Ideal) x1)) (Cert.GraphConv.srcNode (Read.val_main_v9 (F := Ideal) x1))
          (fun j : Fin 128 => x2 (ix2 j (0 : Fin 1))) (fun j : Fin 128 => x3 (ix1 j)) (fun j : Fin 128 => x4 (ix2 j (0 : Fin 1))) n j := by
  have e1 : Read.lidx_main_v15 (ix2 n j) (0 : Fin 1) = ix2 n (0 : Fin 1) :=
    funext fun a => Fin.ext (by match a with | ⟨0, _⟩ => rfl | ⟨1, _⟩ => rfl)
  have e2 : Read.idx_main_v14 (Read.ridx_main_v15 (ix2 n j) (0 : Fin 1)) = ix2 j (0 : Fin 1) :=
    funext fun a => Fin.ext (by match a with | ⟨0, _⟩ => rfl | ⟨1, _⟩ => rfl)
  have e3 : Read.idx_main_v16 (Read.idx_main_v17 (ix2 n j)) = ix1 j :=
    funext fun a => Fin.ext (by match a with | ⟨0, _⟩ => rfl)
  have e4 : Read.lidx_main_v20 (ix2 n j) (0 : Fin 1) = ix2 n (0 : Fin 1) :=
    funext fun a => Fin.ext (by match a with | ⟨0, _⟩ => rfl | ⟨1, _⟩ => rfl)
  have e5 : Read.idx_main_v19 (Read.ridx_main_v20 (ix2 n j) (0 : Fin 1)) = ix2 j (0 : Fin 1) :=
    funext fun a => Fin.ext (by match a with | ⟨0, _⟩ => rfl | ⟨1, _⟩ => rfl)
  rw [Read.val_main_v22_apply, Read.val_main_v21_apply, Read.val_main_v18_apply, Read.val_main_v15_apply,
    Read.val_main_v20_apply, Read.val_main_v17_apply, Read.val_main_v16_apply, relu0_apply,
    Fin.sum_univ_one, Fin.sum_univ_one, Read.val_main_v14_apply, Read.val_main_v19_apply,
    e1, e2, e3, e4, e5, v13_apply]
  rfl

/-! ## The second layer -/

/-- The lookup of the hidden rows along the edge list: edge e reads the hidden row of its source node. -/
theorem v29_apply (e : Fin 1600000) (j : Fin 128) :
    Read.val_main_v29 (F := Ideal) x0 x1 x2 x3 x4 (ix2 e j)
      = Read.val_main_v22 (F := Ideal) x0 x1 x2 x3 x4
          (ix2 (Cert.GraphConv.srcNode (Read.val_main_v9 (F := Ideal) x1) e) j) :=
  gather_rows_apply (N := 100000) (C := 128) (B := 1600000) (by decide)
    Gen.gather_S100000x128_S1600000x1_S1600000x128_1_0_n_n_0_1_1128_wf
    (Read.val_main_v22 (F := Ideal) x0 x1 x2 x3 x4) (Read.val_main_v28 (F := Ideal) x1) e j

/-- The table the second aggregate is added into is zero. -/
theorem v30_apply (i : S100000x128.Idx) : Read.val_main_v30 (F := Ideal) i = 0 := by
  rw [Read.val_main_v30_apply, Read.val_main_cst_3_apply, Ideal.ofBits_def, Ideal.ofBits_zero_f32]

/-- The second aggregate: entry (n, j) is the sum over the edges into n of hidden unit j of the edge's source. -/
theorem v32_apply (n : Fin 100000) (j : Fin 128) :
    Read.val_main_v32 (F := Ideal) x0 x1 x2 x3 x4 (ix2 n j)
      = ∑ e ∈ Cert.GraphConv.inEdges (Read.val_main_v12 (F := Ideal) x1) n,
          Cert.GraphConv.hid (fun n : Fin 100000 => x0 (ix2 n (0 : Fin 1)))
          (Cert.GraphConv.inEdges (Read.val_main_v12 (F := Ideal) x1)) (Cert.GraphConv.srcNode (Read.val_main_v9 (F := Ideal) x1))
          (fun j : Fin 128 => x2 (ix2 j (0 : Fin 1))) (fun j : Fin 128 => x3 (ix1 j)) (fun j : Fin 128 => x4 (ix2 j (0 : Fin 1)))
            (Cert.GraphConv.srcNode (Read.val_main_v9 (F := Ideal) x1) e) j := by
  refine (scatterAdd_rows_apply (N := 100000) (C := 128) (B := 1600000) (φ := .f32)
    Gen.scatter_S100000x128_S1600000x1_S1600000x128_1_0_0_1_wf (Read.val_main_v30 (F := Ideal))
    (Read.val_main_v31 (F := Ideal) x1) (Read.val_main_v29 (F := Ideal) x0 x1 x2 x3 x4) n j).trans ?_
  rw [v30_apply, zero_add]
  exact Finset.sum_congr rfl fun e _ => (v29_apply x0 x1 x2 x3 x4 e j).trans (v22_apply x0 x1 x2 x3 x4 _ j)

/-- The aggregated hidden row of node n projected onto w2: a sum over the 128 hidden units. -/
theorem v34_apply (n : Fin 100000) :
    Read.val_main_v34 (F := Ideal) x0 x1 x2 x3 x4 x5 (ix2 n (0 : Fin 1))
      = ∑ j : Fin 128, (∑ e ∈ Cert.GraphConv.inEdges (Read.val_main_v12 (F := Ideal) x1) n,
          Cert.GraphConv.hid (fun n : Fin 100000 => x0 (ix2 n (0 : Fin 1)))
          (Cert.GraphConv.inEdges (Read.val_main_v12 (F := Ideal) x1)) (Cert.GraphConv.srcNode (Read.val_main_v9 (F := Ideal) x1))
          (fun j : Fin 128 => x2 (ix2 j (0 : Fin 1))) (fun j : Fin 128 => x3 (ix1 j)) (fun j : Fin 128 => x4 (ix2 j (0 : Fin 1)))
            (Cert.GraphConv.srcNode (Read.val_main_v9 (F := Ideal) x1) e) j) * x5 (ix2 (0 : Fin 1) j) := by
  rw [Read.val_main_v34_apply]
  refine Finset.sum_congr rfl fun k _ => ?_
  have e1 : Read.lidx_main_v34 (ix2 n (0 : Fin 1)) k = ix2 n k :=
    funext fun a => Fin.ext (by match a with | ⟨0, _⟩ => rfl | ⟨1, _⟩ => rfl)
  have e2 : Read.idx_main_v33 (Read.ridx_main_v34 (ix2 n (0 : Fin 1)) k) = ix2 (0 : Fin 1) k :=
    funext fun a => Fin.ext (by match a with | ⟨0, _⟩ => rfl | ⟨1, _⟩ => rfl)
  rw [Read.val_main_v33_apply, e1, e2, v32_apply]

/-- The second layer's bias, broadcast down the nodes: every node reads the one number b2. -/
theorem v36_apply (n : Fin 100000) :
    Read.val_main_v36 (F := Ideal) x6 (ix2 n (0 : Fin 1)) = x6 (ix1 (0 : Fin 1)) := by
  have e1 : Read.idx_main_v35 (Read.idx_main_v36 (ix2 n (0 : Fin 1))) = ix1 (0 : Fin 1) :=
    funext fun a => Fin.ext (by match a with | ⟨0, _⟩ => rfl)
  rw [Read.val_main_v36_apply, Read.val_main_v35_apply, e1]

/-- Node n's own hidden row projected onto w2r. -/
theorem v39_apply (n : Fin 100000) :
    Read.val_main_v39 (F := Ideal) x0 x1 x2 x3 x4 x7 (ix2 n (0 : Fin 1))
      = ∑ j : Fin 128, Cert.GraphConv.hid (fun n : Fin 100000 => x0 (ix2 n (0 : Fin 1)))
          (Cert.GraphConv.inEdges (Read.val_main_v12 (F := Ideal) x1)) (Cert.GraphConv.srcNode (Read.val_main_v9 (F := Ideal) x1))
          (fun j : Fin 128 => x2 (ix2 j (0 : Fin 1))) (fun j : Fin 128 => x3 (ix1 j)) (fun j : Fin 128 => x4 (ix2 j (0 : Fin 1))) n j * x7 (ix2 (0 : Fin 1) j) := by
  rw [Read.val_main_v39_apply]
  refine Finset.sum_congr rfl fun k _ => ?_
  have e1 : Read.lidx_main_v39 (ix2 n (0 : Fin 1)) k = ix2 n k :=
    funext fun a => Fin.ext (by match a with | ⟨0, _⟩ => rfl | ⟨1, _⟩ => rfl)
  have e2 : Read.idx_main_v38 (Read.ridx_main_v39 (ix2 n (0 : Fin 1)) k) = ix2 (0 : Fin 1) k :=
    funext fun a => Fin.ext (by match a with | ⟨0, _⟩ => rfl | ⟨1, _⟩ => rfl)
  rw [Read.val_main_v38_apply, e1, e2, v22_apply]

/-! ## The two results -/

/-- The first result at node n is the second layer's output: the reference's sum (aggregated row projected, plus b2,
    plus the node's own row projected) is the specification's by the law that exchanges projecting and aggregating. -/
theorem emb_apply (n : Fin 100000) :
    Read.val_main_v40 (F := Ideal) x0 x1 x2 x3 x4 x5 x6 x7 (ix2 n (0 : Fin 1))
      = Cert.GraphConv.out (fun n : Fin 100000 => x0 (ix2 n (0 : Fin 1)))
          (Cert.GraphConv.inEdges (Read.val_main_v12 (F := Ideal) x1)) (Cert.GraphConv.srcNode (Read.val_main_v9 (F := Ideal) x1))
          (fun j : Fin 128 => x2 (ix2 j (0 : Fin 1))) (fun j : Fin 128 => x3 (ix1 j)) (fun j : Fin 128 => x4 (ix2 j (0 : Fin 1)))
          (fun j : Fin 128 => x5 (ix2 (0 : Fin 1) j)) (fun j : Fin 128 => x7 (ix2 (0 : Fin 1) j)) (x6 (ix1 (0 : Fin 1))) n := by
  rw [Read.val_main_v40_apply, Read.val_main_v37_apply, v34_apply, v36_apply, v39_apply]
  exact Cert.GraphConv.out_eq_aggregate_first _ _ _ _ _ _ (fun j : Fin 128 => x5 (ix2 (0 : Fin 1) j))
    (fun j : Fin 128 => x7 (ix2 (0 : Fin 1) j)) (x6 (ix1 (0 : Fin 1))) n

/-- The column the second cut-off compares with is zero. -/
theorem relu1_apply (i : S100000x1.Idx) : Read.val_main_call1_v0 (F := Ideal) i = 0 := by
  rw [Read.val_main_call1_v0_apply, Read.val_main_call1_cst_apply, Ideal.ofBits_def, Ideal.ofBits_zero_f32]

/-- The second result at node n is the first cut off at 0. -/
theorem upd_apply (n : Fin 100000) :
    Read.val_main_v41 (F := Ideal) x0 x1 x2 x3 x4 x5 x6 x7 (ix2 n (0 : Fin 1))
      = Cert.GraphConv.outRelu (fun n : Fin 100000 => x0 (ix2 n (0 : Fin 1)))
          (Cert.GraphConv.inEdges (Read.val_main_v12 (F := Ideal) x1)) (Cert.GraphConv.srcNode (Read.val_main_v9 (F := Ideal) x1))
          (fun j : Fin 128 => x2 (ix2 j (0 : Fin 1))) (fun j : Fin 128 => x3 (ix1 j)) (fun j : Fin 128 => x4 (ix2 j (0 : Fin 1)))
          (fun j : Fin 128 => x5 (ix2 (0 : Fin 1) j)) (fun j : Fin 128 => x7 (ix2 (0 : Fin 1) j)) (x6 (ix1 (0 : Fin 1))) n := by
  rw [Read.val_main_v41_apply, emb_apply, relu1_apply]
  rfl

end Cert.ReferenceIdeal.RefValue

end
-- ==== Proof.lean ====
/-
  A two-layer graph convolution with sum aggregation: the kernel and its reference agree over the extended reals.

  Over 100000 nodes with one feature each, 1600000 edges and 128 hidden units, both programs compute, for every node n,

      agg n   = ∑ over the edges e into n of x (src e)
      hid n j = max (agg n · w1 j + b1 j + x n · w1r j) 0
      out n   = (second aggregation of the hidden rows, projected onto w2) + b2 + ∑ j, hid n j · w2r j

  and return `out` and `max out 0`. They differ in one place. The reference sums the hidden ROWS of the sources over the
  edges into n and projects the sum onto w2; the kernel projects every node's hidden row onto w2 first — inside its
  first launch, so that the hidden rows are never stored — and sums the resulting NUMBERS over the edges. A hidden
  value is a maximum with 0, hence non-negative, and on the extended reals a sum of non-negative terms times a factor is
  the sum of the products whatever the factor, so the two are the same number (Spec.lean); no finiteness of the inputs
  is used, and the precondition is never opened. Both programs read the edge list the same way: a source word is
  wrapped when negative and clamped into the node range by the lookup, a target word that names no node is dropped by
  the scatter-add.

  The reference's run and its arrays read at an index are the generated modules; RefValue.lean reads its two results at
  a node as the specification's `out` and `outRelu`. The kernel's run with every buffer read at the end is
  KernelRun.lean; its two launches are Projections.lean and Combination.lean (each result row one function of the
  arrays the launch is entered with), the host stretches between them EntryFirst.lean and EntrySecond.lean, and
  Results.lean reads its two results at a node as the same `out` and `outRelu`. The three frames are the generated
  ones; the idealization rewrote nothing.
-/
import proofs.«140387_j52286931861627_2_alg».proof.Defs
import proofs.«140387_j52286931861627_2_alg».proof.Proof.Gen.Kernel
import proofs.«140387_j52286931861627_2_alg».proof.Proof.Gen.Kernel.Skeleton
import proofs.«140387_j52286931861627_2_alg».proof.Proof.Gen.Kernel.Launch
import proofs.«140387_j52286931861627_2_alg».proof.Proof.Gen.Kernel.Points
import proofs.«140387_j52286931861627_2_alg».proof.Proof.Gen.Kernel.Frame
import proofs.«140387_j52286931861627_2_alg».proof.Proof.Gen.KernelIdeal
import proofs.«140387_j52286931861627_2_alg».proof.Proof.Gen.KernelIdeal.Skeleton
import proofs.«140387_j52286931861627_2_alg».proof.Proof.Gen.KernelIdeal.Launch
import proofs.«140387_j52286931861627_2_alg».proof.Proof.Gen.KernelIdeal.Points
import proofs.«140387_j52286931861627_2_alg».proof.Proof.Gen.KernelIdeal.Frame
import proofs.«140387_j52286931861627_2_alg».proof.Proof.Gen.ReferenceIdeal
import proofs.«140387_j52286931861627_2_alg».proof.Proof.Gen.ReferenceIdeal.Run
import proofs.«140387_j52286931861627_2_alg».proof.Proof.Gen.ReferenceIdeal.Read
import proofs.«140387_j52286931861627_2_alg».proof.Proof.Gen.Pre_finite_inputs
import proofs.«140387_j52286931861627_2_alg».proof.Proof.KernelRun
import proofs.«140387_j52286931861627_2_alg».proof.Proof.Results
import proofs.«140387_j52286931861627_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The three frames and the idealization -/

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-! ## Both programs read the same graph -/

/-- The wrapped source words standing as a column: the two programs' terms are the same operations of the edge list. -/
theorem srcCol_eq (ei : IVec ⟨2, ![2, 1600000]⟩ 32) :
    Cert.KernelIdeal.Stages.srcCol (Cert.KernelIdeal.Stages.srcVec ei) = Cert.ReferenceIdeal.Read.val_main_v9 (F := Ideal) ei := rfl

/-- The target words standing as a column, likewise. -/
theorem dstCol_eq (ei : IVec ⟨2, ![2, 1600000]⟩ 32) :
    Cert.KernelIdeal.Stages.dstCol (Cert.KernelIdeal.Stages.dstVec ei) = Cert.ReferenceIdeal.Read.val_main_v12 (F := Ideal) ei := rfl

/-! ## The results agree -/

section
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- At every node the reference's first result is the kernel's: both are the specification's `out` of the one graph and
    the one set of weights. -/
theorem emb_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v40 m' c
      = Cert.KernelIdeal.Gen.W13 m ρ c (Proc.devRef .tc Cert.KernelIdeal.main_v45) := by
  rw [Cert.ReferenceIdeal.Read.val_main_v40_eq, h0, h1, h2, h3, h4, h5, h6, h7]
  refine funext fun (i : Cert.ReferenceIdeal.S100000x1.Idx) => ?_
  obtain ⟨n, u, rfl⟩ : ∃ (n : Fin 100000) (u : Fin 1), i = ix2 n u := ⟨i 0, i 1, eq_ix2 i⟩
  have hu : u = (0 : Fin 1) := Subsingleton.elim _ _
  subst hu
  rw [Cert.ReferenceIdeal.RefValue.emb_apply]
  refine Eq.trans ?_ (Cert.KernelIdeal.Stages.emb_node m ρ c n).symm
  rw [← srcCol_eq, ← dstCol_eq]

/-- The same for the second result: both are `out` cut off at 0. -/
theorem upd_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v41 m' c
      = Cert.KernelIdeal.Gen.W13 m ρ c (Proc.devRef .tc Cert.KernelIdeal.main_v48) := by
  rw [Cert.ReferenceIdeal.Read.val_main_v41_eq, h0, h1, h2, h3, h4, h5, h6, h7]
  refine funext fun (i : Cert.ReferenceIdeal.S100000x1.Idx) => ?_
  obtain ⟨n, u, rfl⟩ : ∃ (n : Fin 100000) (u : Fin 1), i = ix2 n u := ⟨i 0, i 1, eq_ix2 i⟩
  have hu : u = (0 : Fin 1) := Subsingleton.elim _ _
  subst hu
  rw [Cert.ReferenceIdeal.RefValue.upd_apply]
  refine Eq.trans ?_ (Cert.KernelIdeal.Stages.upd_node m ρ c n).symm
  rw [← srcCol_eq, ← dstCol_eq]

end

/-- From memories that agree on the arguments both idealized programs run, and end with equal results: the kernel's two
    result buffers as its run leaves them, which the reference's two results equal node by node. -/
theorem algebraic : Cert.algebraic_KernelIdeal_ReferenceIdeal := by
  intro m ρ m' ρ' _ hagree
  refine ⟨fun c => Cert.KernelIdeal.Gen.W13 m ρ c (Proc.devRef .tc Cert.KernelIdeal.main_v45),
    fun c => Cert.KernelIdeal.Gen.W13 m ρ c (Proc.devRef .tc Cert.KernelIdeal.main_v48), ?_, ?_⟩
  · refine (θ_run Cert.KernelIdeal.defs _ _).mono (fun r h c => ?_) (Cert.KernelIdeal.Run.run_contents m ρ)
    exact ⟨h c _ (Cert.KernelIdeal.Gen.mem_uc Cert.KernelIdeal.main_v45 (by decide)),
      h c _ (Cert.KernelIdeal.Gen.mem_uc Cert.KernelIdeal.main_v48 (by decide)),
      (h c _ (Cert.KernelIdeal.Gen.mem_uc Cert.KernelIdeal.main_arg0 (by decide))).trans (Cert.KernelIdeal.Gen.W13_main_arg0 m ρ c),
      (h c _ (Cert.KernelIdeal.Gen.mem_uc Cert.KernelIdeal.main_arg1 (by decide))).trans (Cert.KernelIdeal.Gen.W13_main_arg1 m ρ c),
      (h c _ (Cert.KernelIdeal.Gen.mem_uc Cert.KernelIdeal.main_arg2 (by decide))).trans (Cert.KernelIdeal.Gen.W13_main_arg2 m ρ c),
      (h c _ (Cert.KernelIdeal.Gen.mem_uc Cert.KernelIdeal.main_arg3 (by decide))).trans (Cert.KernelIdeal.Gen.W13_main_arg3 m ρ c),
      (h c _ (Cert.KernelIdeal.Gen.mem_uc Cert.KernelIdeal.main_arg4 (by decide))).trans (Cert.KernelIdeal.Gen.W13_main_arg4 m ρ c),
      (h c _ (Cert.KernelIdeal.Gen.mem_uc Cert.KernelIdeal.main_arg5 (by decide))).trans (Cert.KernelIdeal.Gen.W13_main_arg5 m ρ c),
      (h c _ (Cert.KernelIdeal.Gen.mem_uc Cert.KernelIdeal.main_arg6 (by decide))).trans (Cert.KernelIdeal.Gen.W13_main_arg6 m ρ c),
      (h c _ (Cert.KernelIdeal.Gen.mem_uc Cert.KernelIdeal.main_arg7 (by decide))).trans (Cert.KernelIdeal.Gen.W13_main_arg7 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · exact emb_agree m ρ m' c (hagree c).1 (hagree c).2.1 (hagree c).2.2.1 (hagree c).2.2.2.1 (hagree c).2.2.2.2.1
        (hagree c).2.2.2.2.2.1 (hagree c).2.2.2.2.2.2.1 (hagree c).2.2.2.2.2.2.2
    · exact upd_agree m ρ m' c (hagree c).1 (hagree c).2.1 (hagree c).2.2.1 (hagree c).2.2.2.1 (hagree c).2.2.2.2.1
        (hagree c).2.2.2.2.2.1 (hagree c).2.2.2.2.2.2.1 (hagree c).2.2.2.2.2.2.2

/-! ## The claim -/

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
